-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S512x2048 : Shape := ⟨2, ![512, 2048]⟩
abbrev S2048x512 : Shape := ⟨2, ![2048, 512]⟩
abbrev S2048 : Shape := ⟨1, ![2048]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S2048x512 .f32) (main_arg8 : FVec F S512 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S2048x512 .f32) (main_arg5 : FVec F S512x2048 .f32) (main_arg6 : FVec F S2048 .f32) (main_arg7 : FVec F S2048x512 .f32) (main_arg8 : FVec F S512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8x4096x512 .f32) (main_arg1 : FVec F S512x2048 .f32) (main_arg2 : FVec F S512x2048 .f32) (main_arg3 : FVec F S512x2048 .f32) (main_arg4 : FVec F S2048x512 .f32) (main_arg5 : FVec F S512x2048 .f32) (main_arg6 : FVec F S2048 .f32) (main_arg7 : FVec F S2048x512 .f32) (main_arg8 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_arg8 main_v13 main_v16
-- ==== Kernel.lean ====
abbrev S8x4096x512 : Shape := ⟨3, ![8, 4096, 512]⟩
abbrev S512x2048 : Shape := ⟨2, ![512, 2048]⟩
abbrev S2048x512 : Shape := ⟨2, ![2048, 512]⟩
abbrev S2048 : Shape := ⟨1, ![2048]⟩
abbrev S512 : Shape := ⟨1, ![512]⟩
abbrev S1x2048 : Shape := ⟨2, ![1, 2048]⟩
abbrev S1x512 : Shape := ⟨2, ![1, 512]⟩
abbrev S8x1x2048 : Shape := ⟨3, ![8, 1, 2048]⟩
abbrev S1x512x512 : Shape := ⟨3, ![1, 512, 512]⟩
abbrev S1x1x2048 : Shape := ⟨3, ![1, 1, 2048]⟩
abbrev S512x512 : Shape := ⟨2, ![512, 512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S8x4096x512, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S2048x512, .f32⟩
  | .hbm, ⟨8, _⟩ => ⟨S512, .f32⟩
  | .hbm, ⟨9, _⟩ => ⟨S512x2048, .bf16⟩
  | .hbm, ⟨10, _⟩ => ⟨S512x2048, .bf16⟩
  | .hbm, ⟨11, _⟩ => ⟨S512x2048, .bf16⟩
  | .hbm, ⟨12, _⟩ => ⟨S2048x512, .bf16⟩
  | .hbm, ⟨13, _⟩ => ⟨S512x2048, .bf16⟩
  | .hbm, ⟨14, _⟩ => ⟨S2048x512, .bf16⟩
  | .hbm, ⟨15, _⟩ => ⟨S1x2048, .f32⟩
  | .hbm, ⟨16, _⟩ => ⟨S1x512, .f32⟩
  | .hbm, ⟨17, _⟩ => ⟨S8x1x2048, .f32⟩
  | .hbm, ⟨18, _⟩ => ⟨S8x4096x512, .f32⟩
  | .local _ .vmem, ⟨0, _⟩ => ⟨S1x512x512, .f32⟩
  | .local _ .vmem, ⟨1, _⟩ => ⟨S1x512x512, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x512x512, .f32⟩
  | .local _ .vmem, ⟨7, _⟩ => ⟨S1x512x512, .f32⟩
  | .local _ .vmem, ⟨8, _⟩ => ⟨S512x2048, .bf16⟩
  | .local _ .vmem, ⟨9, _⟩ => ⟨S2048x512, .bf16⟩
  | .local _ .vmem, ⟨10, _⟩ => ⟨S512x2048, .bf16⟩
  | .local _ .vmem, ⟨11, _⟩ => ⟨S2048x512, .bf16⟩
  | .local _ .vmem, ⟨12, _⟩ => ⟨S1x2048, .f32⟩
  | .local _ .vmem, ⟨13, _⟩ => ⟨S1x512, .f32⟩
  | .local _ .vmem, ⟨14, _⟩ => ⟨S1x1x2048, .f32⟩
  | .local _ .vmem, ⟨15, _⟩ => ⟨S1x1x2048, .f32⟩
  | .local _ .vmem, ⟨16, _⟩ => ⟨S1x512x512, .f32⟩
  | .local _ .vmem, ⟨17, _⟩ => ⟨S1x512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  bitsLt_bf16_f32 : FTy.bits .bf16 < FTy.bits .f32
  shapeCasts_S2048_S1x2048 : S2048.ShapeCasts S1x2048
  shapeCasts_S512_S1x512 : S512.ShapeCasts S1x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  reduces_S512x2048_S2048 : S512x2048.Reduces [0] S2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S1x512x512 : S512x512.ShapeCasts S1x512x512
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x4096x512.size a
  hwx0_0 : ∀ i : grid0.Coords, EltTy.bits .f32 = 32 ∨ (Rect.block (s := S8x4096x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x4096x512.size a
  hwx1_0 : ∀ i : grid1.Coords, EltTy.bits .f32 = 32 ∨ (Rect.block (s := S8x4096x512) S1x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .bf16 = 32 ∨ (Rect.block (s := S512x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x512.size a
  hwx1_2 : ∀ i : grid1.Coords, EltTy.bits .bf16 = 32 ∨ (Rect.block (s := S2048x512) S2048x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S512x2048.size a
  hwx1_3 : ∀ i : grid1.Coords, EltTy.bits .bf16 = 32 ∨ (Rect.block (s := S512x2048) S512x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .bf16 = 32 ∨ (Rect.block (s := S2048x512) S2048x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x2048.size a ≤ S8x1x2048.size a
  hwx1_7 : ∀ i : grid1.Coords, EltTy.bits .f32 = 32 ∨ (Rect.block (s := S8x1x2048) S1x1x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x512.size a ≤ S8x4096x512.size a
  hwx1_8 : ∀ i : grid1.Coords, EltTy.bits .f32 = 32 ∨ (Rect.block (s := S8x4096x512) S1x512x512.size (cc1_transform_8 i) (hinb1_8 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x1x2048.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x512x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x4096x512 : Shape := ⟨3, ![8, 4096, 512]⟩
abbrev S512x2048 : Shape := ⟨2, ![512, 2048]⟩
abbrev S2048x512 : Shape := ⟨2, ![2048, 512]⟩
abbrev S2048 : Shape := ⟨1, ![2048]⟩
abbrev S512 : Shape := ⟨1, ![512]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S8x2048 : Shape := ⟨2, ![8, 2048]⟩
abbrev S8x1x2048 : Shape := ⟨3, ![8, 1, 2048]⟩
abbrev S1x1x2048 : Shape := ⟨3, ![1, 1, 2048]⟩
abbrev S1x1x512 : Shape := ⟨3, ![1, 1, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S2048x512, .f32⟩
  | .hbm, ⟨8, _⟩ => ⟨S512, .f32⟩
  | .hbm, ⟨9, _⟩ => ⟨S8x4096x2048, .f32⟩
  | .hbm, ⟨10, _⟩ => ⟨S8x4096x2048, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S8x4096x2048, .f32⟩
  | .hbm, ⟨33, _⟩ => ⟨S_, .f32⟩
  | .hbm, ⟨34, _⟩ => ⟨S8x2048, .f32⟩
  | .hbm, ⟨35, _⟩ => ⟨S8x1x2048, .f32⟩
  | .hbm, ⟨36, _⟩ => ⟨S8x4096x2048, .f32⟩
  | .hbm, ⟨37, _⟩ => ⟨S8x4096x2048, .f32⟩
  | .hbm, ⟨38, _⟩ => ⟨S8x4096x512, .f32⟩
  | .hbm, ⟨39, _⟩ => ⟨S8x4096x512, .f32⟩
  | .hbm, ⟨40, _⟩ => ⟨S8x4096x2048, .f32⟩
  | .hbm, ⟨41, _⟩ => ⟨S1x1x2048, .f32⟩
  | .hbm, ⟨42, _⟩ => ⟨S8x4096x2048, .f32⟩
  | .hbm, ⟨43, _⟩ => ⟨S8x4096x2048, .f32⟩
  | .hbm, ⟨44, _⟩ => ⟨S_, .f32⟩
  | .hbm, ⟨45, _⟩ => ⟨S8x4096x2048, .f32⟩
  | .hbm, ⟨46, _⟩ => ⟨S8x4096x2048, .f32⟩
  | .hbm, ⟨47, _⟩ => ⟨S8x4096x512, .f32⟩
  | .hbm, ⟨48, _⟩ => ⟨S1x1x512, .f32⟩
  | .hbm, ⟨49, _⟩ => ⟨S8x4096x512, .f32⟩
  | .hbm, ⟨50, _⟩ => ⟨S8x4096x512, .f32⟩
  | .hbm, ⟨51, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  reducesTo_S8x4096x2048_S8x2048_d1 : S8x4096x2048.ReducesTo [1] S8x2048
  bcast_S8x2048_S8x1x2048_0_2 : S8x2048.BroadcastsInDim S8x1x2048 (![0, 2] : Fin 2 → Fin S8x1x2048.rank)
  bcast_S8x1x2048_S8x4096x2048_0_1_2 : S8x1x2048.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x512_S512x2048_S8x4096x2048_2_0_01_1_n_n_wf : DotDims.WF S8x4096x512 S512x2048 S8x4096x2048 [2] [0] [0, 1] [1] [] []
  dot_S8x4096x2048_S2048x512_S8x4096x512_2_0_01_1_n_n_wf : DotDims.WF S8x4096x2048 S2048x512 S8x4096x512 [2] [0] [0, 1] [1] [] []

variable [Facts₀]

def dot_S8x4096x512_S512x2048_S8x4096x2048_2_0_01_1_n_n : DotDims S8x4096x512 S512x2048 S8x4096x2048 where
  lhsContracting := [2]
  rhsContracting := [0]
  lhsNonContracting := [0, 1]
  rhsNonContracting := [1]
  lhsBatch := []
  rhsBatch := []
  wf := dot_S8x4096x512_S512x2048_S8x4096x2048_2_0_01_1_n_n_wf
def dot_S8x4096x2048_S2048x512_S8x4096x512_2_0_01_1_n_n : DotDims S8x4096x2048 S2048x512 S8x4096x512 where
  lhsContracting := [2]
  rhsContracting := [0]
  lhsNonContracting := [0, 1]
  rhsNonContracting := [1]
  lhsBatch := []
  rhsBatch := []
  wf := dot_S8x4096x2048_S2048x512_S8x4096x512_2_0_01_1_n_n_wf

class Facts : Prop extends Facts₀ where

variable [Facts]
-- ==== Proof.Spec.lean ====
/-
  The encoder layer as ONE function of its argument arrays, over the extended reals, coordinate by coordinate.

  For one position's row xr : [512] of x, the weight matrices, and a summary row kvr : [2048]:
    rowProj xr w e      = Σ_d xr(d) · w(d,e)                            the row against a [512, 2048] matrix
    rowLen y            = max(√(Σ_e y(e)²), ε)                            a row's length, kept ≥ ε
    unitRow y e         = y(e) / rowLen y                                 the row scaled to unit length
    kvTerm xr wk wv e   = unitRow(rowProj xr wk)(e) · rowProj xr wv e     one position's share of the key-value summary
    attnRow xr wq kvr wo d = Σ_e (unitRow(rowProj xr wq)(e) · kvr(e)) · wo(e,d) + xr(d)
    hidden a w1 b1 e    = max(Σ_d a(d) · w1(d,e) + b1(e), 0)
    ffn a w1 b1 w2 b2 d = (Σ_e hidden(a)(e) · w2(e,d) + b2(d)) + a(d)
  and for the whole arrays, at batch b and position s:
    kvSum x wk wv b e   = Σ_s kvTerm(x(b,s,·)) e                          summed over all 4096 positions
    layerOut … b s d    = ffn(attnRow(x(b,s,·), wq, kvSum … b, wo)) d
  ε is the binary32 value nearest 1e-12, kept as its word.
-/
import Idealize.ShloMosaic.PureOps.Ideal
import Idealize.ShloMosaic.Lib.ValueIdx

noncomputable section

namespace Hydra

open Idealize.ShloMosaic

/-- The lower bound of a row's length: the binary32 word of 1e-12. -/
def eps : EReal := Ideal.ofBits .f32 0x2B8CBCCC#32

/-- A row of 512 entries against the columns of a [512, 2048] matrix. -/
def rowProj (xr : Fin 512 → EReal) (w : Fin 512 → Fin 2048 → EReal) (e : Fin 2048) : EReal :=
  ∑ d : Fin 512, xr d * w d e

/-- A row's Euclidean length, kept at least `eps`. -/
def rowLen (y : Fin 2048 → EReal) : EReal :=
  max (Ideal.sqrt (∑ e : Fin 2048, y e * y e)) eps

/-- The row divided by its (clipped) length. -/
def unitRow (y : Fin 2048 → EReal) (e : Fin 2048) : EReal :=
  Ideal.div (y e) (rowLen y)

/-- One position's share of the key-value summary: its unit key row times its value row. -/
def kvTerm (xr : Fin 512 → EReal) (wk wv : Fin 512 → Fin 2048 → EReal) (e : Fin 2048) : EReal :=
  unitRow (rowProj xr wk) e * rowProj xr wv e

/-- The key-value summary of batch `b`: the shares of all 4096 positions added up. -/
def kvSum (x : Fin 8 → Fin 4096 → Fin 512 → EReal) (wk wv : Fin 512 → Fin 2048 → EReal)
    (b : Fin 8) (e : Fin 2048) : EReal :=
  ∑ s : Fin 4096, kvTerm (x b s) wk wv e

/-- The attention output of one position with its residual, given the batch's summary row `kvr`. -/
def attnRow (xr : Fin 512 → EReal) (wq : Fin 512 → Fin 2048 → EReal) (kvr : Fin 2048 → EReal)
    (wo : Fin 2048 → Fin 512 → EReal) (d : Fin 512) : EReal :=
  (∑ e : Fin 2048, (unitRow (rowProj xr wq) e * kvr e) * wo e d) + xr d

/-- The feed-forward hidden layer: a dense layer with bias, clipped below at zero. -/
def hidden (a : Fin 512 → EReal) (w1 : Fin 512 → Fin 2048 → EReal) (b1 : Fin 2048 → EReal) (e : Fin 2048) : EReal :=
  max ((∑ d : Fin 512, a d * w1 d e) + b1 e) 0

/-- The feed-forward output with its residual, from the attention row `a`. -/
def ffn (a : Fin 512 → EReal) (w1 : Fin 512 → Fin 2048 → EReal) (b1 : Fin 2048 → EReal)
    (w2 : Fin 2048 → Fin 512 → EReal) (b2 : Fin 512 → EReal) (d : Fin 512) : EReal :=
  ((∑ e : Fin 2048, hidden a w1 b1 e * w2 e d) + b2 d) + a d

/-- One position's output row from its input row and its batch's summary row. -/
def layerRow (xr : Fin 512 → EReal) (wq : Fin 512 → Fin 2048 → EReal) (kvr : Fin 2048 → EReal)
    (wo : Fin 2048 → Fin 512 → EReal) (w1 : Fin 512 → Fin 2048 → EReal) (b1 : Fin 2048 → EReal)
    (w2 : Fin 2048 → Fin 512 → EReal) (b2 : Fin 512 → EReal) (d : Fin 512) : EReal :=
  ffn (attnRow xr wq kvr wo) w1 b1 w2 b2 d

/-- The whole layer at `(b, s, d)`. -/
def layerOut (x : Fin 8 → Fin 4096 → Fin 512 → EReal) (wq wk wv : Fin 512 → Fin 2048 → EReal)
    (wo : Fin 2048 → Fin 512 → EReal) (w1 : Fin 512 → Fin 2048 → EReal) (b1 : Fin 2048 → EReal)
    (w2 : Fin 2048 → Fin 512 → EReal) (b2 : Fin 512 → EReal) (b : Fin 8) (s : Fin 4096) (d : Fin 512) : EReal :=
  layerRow (x b s) wq (kvSum x wk wv b) wo w1 b1 w2 b2 d

end Hydra

end
-- ==== Proof.RefLayer.lean ====
/-
  The reference program computes the layer of the specification, coordinate by coordinate.

  The reference is a chain of host operations. Each is read at an index from its operands at an index; at the
  coordinates (b, s, e) every index map of the chain is again a triple, pair or single of coordinates:
    * a product against a weight matrix reads row (b, s, ·) of its left operand and column e of the matrix,
    * a sum along the last axis of [8, 4096, 2048] at (b, s) reads (b, s, k) for every k,
    * the sum along the position axis at (b, e) reads (b, k, e) for every position k,
    * a broadcast along an axis of extent one reads coordinate 0 there, and a bias row is read at its last coordinate.
  With these the stages are, in order: the three projections are `rowProj`; a projection divided by the larger of the
  square root of its row's sum of squares and ε is `unitRow`; the sum over positions of unit key row times value row is
  `kvSum`; the unit query row times the summary, against the output matrix, plus the input row is `attnRow`; the dense
  layer with bias clipped at zero is `hidden`, and the second dense layer with bias and residual is `ffn`. The sums
  start from the zero word, which is the real number zero.
-/
import proofs.«108265_j37366215475341_1_alg».proof.Proof.Spec
import proofs.«108265_j37366215475341_1_alg».proof.Proof.Gen.ReferenceIdeal.Read

noncomputable section

namespace Cert.ReferenceIdeal.RefValue

open Cert.ReferenceIdeal Cert.ReferenceIdeal.Read Idealize.ShloMosaic Idealize.ShloMosaic.ValueIdx

/-! ## The index maps at coordinates -/

theorem lidx_v0 (b : Fin 8) (s : Fin 4096) (e : Fin 2048) (k : Fin 512) :
    lidx_main_v0 (ix3 b s e) k = ix3 b s k :=
  funext fun a => Fin.ext (by match a with | ⟨0, _⟩ => rfl | ⟨1, _⟩ => rfl | ⟨2, _⟩ => rfl)
theorem ridx_v0 (b : Fin 8) (s : Fin 4096) (e : Fin 2048) (k : Fin 512) :
    ridx_main_v0 (ix3 b s e) k = ix2 k e :=
  funext fun a => Fin.ext (by match a with | ⟨0, _⟩ => rfl | ⟨1, _⟩ => rfl)
theorem lidx_v9 (b : Fin 8) (s : Fin 4096) (e : Fin 2048) (k : Fin 512) :
    lidx_main_v9 (ix3 b s e) k = ix3 b s k :=
  funext fun a => Fin.ext (by match a with | ⟨0, _⟩ => rfl | ⟨1, _⟩ => rfl | ⟨2, _⟩ => rfl)
theorem ridx_v9 (b : Fin 8) (s : Fin 4096) (e : Fin 2048) (k : Fin 512) :
    ridx_main_v9 (ix3 b s e) k = ix2 k e :=
  funext fun a => Fin.ext (by match a with | ⟨0, _⟩ => rfl | ⟨1, _⟩ => rfl)
theorem lidx_v18 (b : Fin 8) (s : Fin 4096) (e : Fin 2048) (k : Fin 512) :
    lidx_main_v18 (ix3 b s e) k = ix3 b s k :=
  funext fun a => Fin.ext (by match a with | ⟨0, _⟩ => rfl | ⟨1, _⟩ => rfl | ⟨2, _⟩ => rfl)
theorem ridx_v18 (b : Fin 8) (s : Fin 4096) (e : Fin 2048) (k : Fin 512) :
    ridx_main_v18 (ix3 b s e) k = ix2 k e :=
  funext fun a => Fin.ext (by match a with | ⟨0, _⟩ => rfl | ⟨1, _⟩ => rfl)
theorem lidx_v26 (b : Fin 8) (s : Fin 4096) (e : Fin 2048) (k : Fin 512) :
    lidx_main_v26 (ix3 b s e) k = ix3 b s k :=
  funext fun a => Fin.ext (by match a with | ⟨0, _⟩ => rfl | ⟨1, _⟩ => rfl | ⟨2, _⟩ => rfl)
theorem ridx_v26 (b : Fin 8) (s : Fin 4096) (e : Fin 2048) (k : Fin 512) :
    ridx_main_v26 (ix3 b s e) k = ix2 k e :=
  funext fun a => Fin.ext (by match a with | ⟨0, _⟩ => rfl | ⟨1, _⟩ => rfl)
theorem lidx_v24 (b : Fin 8) (s : Fin 4096) (d : Fin 512) (k : Fin 2048) :
    lidx_main_v24 (ix3 b s d) k = ix3 b s k :=
  funext fun a => Fin.ext (by match a with | ⟨0, _⟩ => rfl | ⟨1, _⟩ => rfl | ⟨2, _⟩ => rfl)
theorem ridx_v24 (b : Fin 8) (s : Fin 4096) (d : Fin 512) (k : Fin 2048) :
    ridx_main_v24 (ix3 b s d) k = ix2 k d :=
  funext fun a => Fin.ext (by match a with | ⟨0, _⟩ => rfl | ⟨1, _⟩ => rfl)
theorem lidx_v31 (b : Fin 8) (s : Fin 4096) (d : Fin 512) (k : Fin 2048) :
    lidx_main_v31 (ix3 b s d) k = ix3 b s k :=
  funext fun a => Fin.ext (by match a with | ⟨0, _⟩ => rfl | ⟨1, _⟩ => rfl | ⟨2, _⟩ => rfl)
theorem ridx_v31 (b : Fin 8) (s : Fin 4096) (d : Fin 512) (k : Fin 2048) :
    ridx_main_v31 (ix3 b s d) k = ix2 k d :=
  funext fun a => Fin.ext (by match a with | ⟨0, _⟩ => rfl | ⟨1, _⟩ => rfl)
theorem idx_v2 (b : Fin 8) (s : Fin 4096) (k : Fin 2048) :
    idx_main_v2 (ix2 b s) k = ix3 b s k :=
  funext fun a => Fin.ext (by match a with | ⟨0, _⟩ => rfl | ⟨1, _⟩ => rfl | ⟨2, _⟩ => rfl)
theorem idx_v11 (b : Fin 8) (s : Fin 4096) (k : Fin 2048) :
    idx_main_v11 (ix2 b s) k = ix3 b s k :=
  funext fun a => Fin.ext (by match a with | ⟨0, _⟩ => rfl | ⟨1, _⟩ => rfl | ⟨2, _⟩ => rfl)
theorem idx_v3 (b : Fin 8) (s : Fin 4096) (z : Fin 1) :
    idx_main_v3 (ix3 b s z) = ix2 b s :=
  funext fun a => Fin.ext (by match a with | ⟨0, _⟩ => rfl | ⟨1, _⟩ => rfl)
theorem idx_v12 (b : Fin 8) (s : Fin 4096) (z : Fin 1) :
    idx_main_v12 (ix3 b s z) = ix2 b s :=
  funext fun a => Fin.ext (by match a with | ⟨0, _⟩ => rfl | ⟨1, _⟩ => rfl)
theorem idx_v7 (b : Fin 8) (s : Fin 4096) (e : Fin 2048) :
    idx_main_v7 (ix3 b s e) = ix3 b s (0 : Fin 1) :=
  funext fun a => Fin.ext (by match a with | ⟨0, _⟩ => rfl | ⟨1, _⟩ => rfl | ⟨2, _⟩ => rfl)
theorem idx_v16 (b : Fin 8) (s : Fin 4096) (e : Fin 2048) :
    idx_main_v16 (ix3 b s e) = ix3 b s (0 : Fin 1) :=
  funext fun a => Fin.ext (by match a with | ⟨0, _⟩ => rfl | ⟨1, _⟩ => rfl | ⟨2, _⟩ => rfl)
theorem idx_v20 (b : Fin 8) (e : Fin 2048) (k : Fin 4096) :
    idx_main_v20 (ix2 b e) k = ix3 b k e :=
  funext fun a => Fin.ext (by match a with | ⟨0, _⟩ => rfl | ⟨1, _⟩ => rfl | ⟨2, _⟩ => rfl)
theorem idx_v21 (b : Fin 8) (z : Fin 1) (e : Fin 2048) :
    idx_main_v21 (ix3 b z e) = ix2 b e :=
  funext fun a => Fin.ext (by match a with | ⟨0, _⟩ => rfl | ⟨1, _⟩ => rfl)
theorem idx_v22 (b : Fin 8) (s : Fin 4096) (e : Fin 2048) :
    idx_main_v22 (ix3 b s e) = ix3 b (0 : Fin 1) e :=
  funext fun a => Fin.ext (by match a with | ⟨0, _⟩ => rfl | ⟨1, _⟩ => rfl | ⟨2, _⟩ => rfl)
theorem idx_v27 (y z : Fin 1) (e : Fin 2048) :
    idx_main_v27 (ix3 y z e) = ix1 e :=
  funext fun a => Fin.ext (by match a with | ⟨0, _⟩ => rfl)
theorem idx_v28 (b : Fin 8) (s : Fin 4096) (e : Fin 2048) :
    idx_main_v28 (ix3 b s e) = ix3 (0 : Fin 1) (0 : Fin 1) e :=
  funext fun a => Fin.ext (by match a with | ⟨0, _⟩ => rfl | ⟨1, _⟩ => rfl | ⟨2, _⟩ => rfl)
theorem idx_v32 (y z : Fin 1) (d : Fin 512) :
    idx_main_v32 (ix3 y z d) = ix1 d :=
  funext fun a => Fin.ext (by match a with | ⟨0, _⟩ => rfl)
theorem idx_v33 (b : Fin 8) (s : Fin 4096) (d : Fin 512) :
    idx_main_v33 (ix3 b s d) = ix3 (0 : Fin 1) (0 : Fin 1) d :=
  funext fun a => Fin.ext (by match a with | ⟨0, _⟩ => rfl | ⟨1, _⟩ => rfl | ⟨2, _⟩ => rfl)

/-! ## The three projections -/

/-- The product of `x` with a [512, 2048] weight matrix, at (b, s, e), is row (b, s) of `x` against column e. -/
theorem proj_q (x0 : S8x4096x512.Idx → EReal) (x1 : S512x2048.Idx → EReal) (b : Fin 8) (s : Fin 4096) (e : Fin 2048) :
    val_main_v0 (F := Ideal) x0 x1 (ix3 b s e) = Hydra.rowProj (fun d => x0 (ix3 b s d)) (fun d e => x1 (ix2 d e)) e := by
  rw [val_main_v0_apply]
  unfold Hydra.rowProj
  refine Finset.sum_congr rfl fun k _ => ?_
  rw [lidx_v0, ridx_v0]

/-- The product of `x` with a [512, 2048] weight matrix, at (b, s, e), is row (b, s) of `x` against column e. -/
theorem proj_k (x0 : S8x4096x512.Idx → EReal) (x2 : S512x2048.Idx → EReal) (b : Fin 8) (s : Fin 4096) (e : Fin 2048) :
    val_main_v9 (F := Ideal) x0 x2 (ix3 b s e) = Hydra.rowProj (fun d => x0 (ix3 b s d)) (fun d e => x2 (ix2 d e)) e := by
  rw [val_main_v9_apply]
  unfold Hydra.rowProj
  refine Finset.sum_congr rfl fun k _ => ?_
  rw [lidx_v9, ridx_v9]

/-- The product of `x` with a [512, 2048] weight matrix, at (b, s, e), is row (b, s) of `x` against column e. -/
theorem proj_v (x0 : S8x4096x512.Idx → EReal) (x3 : S512x2048.Idx → EReal) (b : Fin 8) (s : Fin 4096) (e : Fin 2048) :
    val_main_v18 (F := Ideal) x0 x3 (ix3 b s e) = Hydra.rowProj (fun d => x0 (ix3 b s d)) (fun d e => x3 (ix2 d e)) e := by
  rw [val_main_v18_apply]
  unfold Hydra.rowProj
  refine Finset.sum_congr rfl fun k _ => ?_
  rw [lidx_v18, ridx_v18]

/-! ## The rows scaled to unit length -/

/-- The sum of squares of row (b, s) of a projection, from the zero word. -/
theorem sumsq_unit_q (x0 : S8x4096x512.Idx → EReal) (x1 : S512x2048.Idx → EReal) (b : Fin 8) (s : Fin 4096) :
    val_main_v2 (F := Ideal) x0 x1 (ix2 b s)
      = ∑ e : Fin 2048, Hydra.rowProj (fun d => x0 (ix3 b s d)) (fun d e => x1 (ix2 d e)) e * Hydra.rowProj (fun d => x0 (ix3 b s d)) (fun d e => x1 (ix2 d e)) e := by
  rw [val_main_v2_apply, val_main_cst_apply, Ideal.ofBits_def, Ideal.ofBits_zero_f32, zero_add]
  refine Finset.sum_congr rfl fun k _ => ?_
  rw [idx_v2, val_main_v1_apply, Ideal.mulf_def, proj_q]

/-- The divisor of row (b, s): the larger of the root of its sum of squares and ε, the same for every e. -/
theorem len_unit_q (x0 : S8x4096x512.Idx → EReal) (x1 : S512x2048.Idx → EReal) (b : Fin 8) (s : Fin 4096) (e : Fin 2048) :
    val_main_v7 (F := Ideal) x0 x1 (ix3 b s e) = Hydra.rowLen (Hydra.rowProj (fun d => x0 (ix3 b s d)) (fun d e => x1 (ix2 d e))) := by
  rw [val_main_v7_apply, idx_v7, val_main_v6_apply, val_main_v4_apply, val_main_v3_apply, idx_v3,
    sumsq_unit_q, val_main_v5_apply, val_main_cst_0_apply, Ideal.maximumf_def, Ideal.hostUnary_sqrt_def, Ideal.ofBits_def]
  rfl

/-- The projection divided by its row's length is the unit row. -/
theorem unit_q (x0 : S8x4096x512.Idx → EReal) (x1 : S512x2048.Idx → EReal) (b : Fin 8) (s : Fin 4096) (e : Fin 2048) :
    val_main_v8 (F := Ideal) x0 x1 (ix3 b s e) = Hydra.unitRow (Hydra.rowProj (fun d => x0 (ix3 b s d)) (fun d e => x1 (ix2 d e))) e := by
  rw [val_main_v8_apply, Ideal.hostDivf_def, proj_q, len_unit_q]
  rfl

/-- The sum of squares of row (b, s) of a projection, from the zero word. -/
theorem sumsq_unit_k (x0 : S8x4096x512.Idx → EReal) (x2 : S512x2048.Idx → EReal) (b : Fin 8) (s : Fin 4096) :
    val_main_v11 (F := Ideal) x0 x2 (ix2 b s)
      = ∑ e : Fin 2048, Hydra.rowProj (fun d => x0 (ix3 b s d)) (fun d e => x2 (ix2 d e)) e * Hydra.rowProj (fun d => x0 (ix3 b s d)) (fun d e => x2 (ix2 d e)) e := by
  rw [val_main_v11_apply, val_main_cst_1_apply, Ideal.ofBits_def, Ideal.ofBits_zero_f32, zero_add]
  refine Finset.sum_congr rfl fun k _ => ?_
  rw [idx_v11, val_main_v10_apply, Ideal.mulf_def, proj_k]

/-- The divisor of row (b, s): the larger of the root of its sum of squares and ε, the same for every e. -/
theorem len_unit_k (x0 : S8x4096x512.Idx → EReal) (x2 : S512x2048.Idx → EReal) (b : Fin 8) (s : Fin 4096) (e : Fin 2048) :
    val_main_v16 (F := Ideal) x0 x2 (ix3 b s e) = Hydra.rowLen (Hydra.rowProj (fun d => x0 (ix3 b s d)) (fun d e => x2 (ix2 d e))) := by
  rw [val_main_v16_apply, idx_v16, val_main_v15_apply, val_main_v13_apply, val_main_v12_apply, idx_v12,
    sumsq_unit_k, val_main_v14_apply, val_main_cst_2_apply, Ideal.maximumf_def, Ideal.hostUnary_sqrt_def, Ideal.ofBits_def]
  rfl

/-- The projection divided by its row's length is the unit row. -/
theorem unit_k (x0 : S8x4096x512.Idx → EReal) (x2 : S512x2048.Idx → EReal) (b : Fin 8) (s : Fin 4096) (e : Fin 2048) :
    val_main_v17 (F := Ideal) x0 x2 (ix3 b s e) = Hydra.unitRow (Hydra.rowProj (fun d => x0 (ix3 b s d)) (fun d e => x2 (ix2 d e))) e := by
  rw [val_main_v17_apply, Ideal.hostDivf_def, proj_k, len_unit_k]
  rfl

/-! ## The key-value summary -/

/-- The sum over all positions of unit key row times value row, from the zero word. -/
theorem kv (x0 : S8x4096x512.Idx → EReal) (x2 : S512x2048.Idx → EReal) (x3 : S512x2048.Idx → EReal) (b : Fin 8) (e : Fin 2048) :
    val_main_v20 (F := Ideal) x0 x2 x3 (ix2 b e) = Hydra.kvSum (fun b s d => x0 (ix3 b s d)) (fun d e => x2 (ix2 d e)) (fun d e => x3 (ix2 d e)) b e := by
  rw [val_main_v20_apply, val_main_cst_3_apply, Ideal.ofBits_def, Ideal.ofBits_zero_f32, zero_add]
  unfold Hydra.kvSum Hydra.kvTerm
  refine Finset.sum_congr rfl fun k _ => ?_
  rw [idx_v20, val_main_v19_apply, Ideal.mulf_def, unit_k, proj_v]

/-- The summary spread over the positions: at (b, s, e) it is the summary at (b, e). -/
theorem kv_spread (x0 : S8x4096x512.Idx → EReal) (x2 : S512x2048.Idx → EReal) (x3 : S512x2048.Idx → EReal) (b : Fin 8) (s : Fin 4096) (e : Fin 2048) :
    val_main_v22 (F := Ideal) x0 x2 x3 (ix3 b s e) = Hydra.kvSum (fun b s d => x0 (ix3 b s d)) (fun d e => x2 (ix2 d e)) (fun d e => x3 (ix2 d e)) b e := by
  rw [val_main_v22_apply, idx_v22, val_main_v21_apply, idx_v21, kv]

/-! ## The attention row -/

theorem attn (x0 : S8x4096x512.Idx → EReal) (x1 : S512x2048.Idx → EReal) (x2 : S512x2048.Idx → EReal) (x3 : S512x2048.Idx → EReal) (x4 : S2048x512.Idx → EReal) (b : Fin 8) (s : Fin 4096) (d : Fin 512) :
    val_main_v25 (F := Ideal) x0 x1 x2 x3 x4 (ix3 b s d)
      = Hydra.attnRow (fun d => x0 (ix3 b s d)) (fun d e => x1 (ix2 d e)) (Hydra.kvSum (fun b s d => x0 (ix3 b s d)) (fun d e => x2 (ix2 d e)) (fun d e => x3 (ix2 d e)) b) (fun e d => x4 (ix2 e d)) d := by
  rw [val_main_v25_apply, Ideal.addf_def, val_main_v24_apply]
  unfold Hydra.attnRow
  refine congrArg (· + x0 (ix3 b s d)) (Finset.sum_congr rfl fun k _ => ?_)
  rw [lidx_v24, ridx_v24, val_main_v23_apply, Ideal.mulf_def, unit_q, kv_spread]

/-! ## The feed-forward layers -/

/-- The first dense layer with its bias, clipped below at the zero word. -/
theorem hid (x0 : S8x4096x512.Idx → EReal) (x1 : S512x2048.Idx → EReal) (x2 : S512x2048.Idx → EReal) (x3 : S512x2048.Idx → EReal) (x4 : S2048x512.Idx → EReal) (x5 : S512x2048.Idx → EReal) (x6 : S2048.Idx → EReal) (b : Fin 8) (s : Fin 4096) (e : Fin 2048) :
    val_main_v30 (F := Ideal) x0 x1 x2 x3 x4 x5 x6 (ix3 b s e)
      = Hydra.hidden (Hydra.attnRow (fun d => x0 (ix3 b s d)) (fun d e => x1 (ix2 d e)) (Hydra.kvSum (fun b s d => x0 (ix3 b s d)) (fun d e => x2 (ix2 d e)) (fun d e => x3 (ix2 d e)) b) (fun e d => x4 (ix2 e d))) (fun d e => x5 (ix2 d e)) (fun e => x6 (ix1 e)) e := by
  rw [val_main_v30_apply, val_main_call0_v0_apply, val_main_call0_cst_apply, Ideal.maximumf_def, Ideal.ofBits_def,
    Ideal.ofBits_zero_f32, val_main_v29_apply, Ideal.addf_def, val_main_v28_apply, idx_v28, val_main_v27_apply, idx_v27,
    val_main_v26_apply]
  unfold Hydra.hidden
  refine congrArg (fun t => max (t + x6 (ix1 e)) 0) (Finset.sum_congr rfl fun k _ => ?_)
  rw [lidx_v26, ridx_v26, attn]

/-- The second dense layer with its bias, plus the attention row. -/
theorem out (x0 : S8x4096x512.Idx → EReal) (x1 : S512x2048.Idx → EReal) (x2 : S512x2048.Idx → EReal) (x3 : S512x2048.Idx → EReal) (x4 : S2048x512.Idx → EReal) (x5 : S512x2048.Idx → EReal) (x6 : S2048.Idx → EReal) (x7 : S2048x512.Idx → EReal) (x8 : S512.Idx → EReal) (b : Fin 8) (s : Fin 4096) (d : Fin 512) :
    val_main_v35 (F := Ideal) x0 x1 x2 x3 x4 x5 x6 x7 x8 (ix3 b s d)
      = Hydra.ffn (Hydra.attnRow (fun d => x0 (ix3 b s d)) (fun d e => x1 (ix2 d e)) (Hydra.kvSum (fun b s d => x0 (ix3 b s d)) (fun d e => x2 (ix2 d e)) (fun d e => x3 (ix2 d e)) b) (fun e d => x4 (ix2 e d))) (fun d e => x5 (ix2 d e)) (fun e => x6 (ix1 e)) (fun e d => x7 (ix2 e d)) (fun d => x8 (ix1 d)) d := by
  rw [val_main_v35_apply, Ideal.addf_def, attn, val_main_v34_apply, Ideal.addf_def, val_main_v33_apply, idx_v33,
    val_main_v32_apply, idx_v32, val_main_v31_apply]
  unfold Hydra.ffn
  refine congrArg (fun t => t + x8 (ix1 d) + (Hydra.attnRow (fun d => x0 (ix3 b s d)) (fun d e => x1 (ix2 d e)) (Hydra.kvSum (fun b s d => x0 (ix3 b s d)) (fun d e => x2 (ix2 d e)) (fun d e => x3 (ix2 d e)) b) (fun e d => x4 (ix2 e d))) d) (Finset.sum_congr rfl fun k _ => ?_)
  rw [lidx_v31, ridx_v31, hid]

/-! ## The whole layer -/

/-- The reference's result at (b, s, d) is the layer of the specification there. -/
theorem ref_layer (x0 : S8x4096x512.Idx → EReal) (x1 : S512x2048.Idx → EReal) (x2 : S512x2048.Idx → EReal) (x3 : S512x2048.Idx → EReal) (x4 : S2048x512.Idx → EReal) (x5 : S512x2048.Idx → EReal) (x6 : S2048.Idx → EReal) (x7 : S2048x512.Idx → EReal) (x8 : S512.Idx → EReal) (b : Fin 8) (s : Fin 4096) (d : Fin 512) :
    val_main_v35 (F := Ideal) x0 x1 x2 x3 x4 x5 x6 x7 x8 (ix3 b s d)
      = Hydra.layerOut (fun b s d => x0 (ix3 b s d)) (fun d e => x1 (ix2 d e)) (fun d e => x2 (ix2 d e)) (fun d e => x3 (ix2 d e)) (fun e d => x4 (ix2 e d)) (fun d e => x5 (ix2 d e))
          (fun e => x6 (ix1 e)) (fun e d => x7 (ix2 e d)) (fun d => x8 (ix1 d)) b s d := by
  rw [out]
  rfl

end Cert.ReferenceIdeal.RefValue

end
-- ==== Proof.RunNamed.lean ====
/-
  The run of the layer's program with its result array named.

  At the compiled mesh, from any memory with all counters at zero, every weakly fair execution of the layer's program on
  the TensorCores terminates, and in every final state, on every core:
    * the result array holds what the write-backs of the second region leave in its ninth array, folded over all of
      that region's grid points, the region being entered at the contents the first region leaves;
    * each of the nine argument arrays holds what it held at launch.
  The thread state at the end has every unscoped buffer at the last boundary's contents; the result array is one of the
  second region's arrays, so its contents there are the region's own account of that array, and no argument is written
  by a host operation or by a region.
-/
import proofs.«108265_j37366215475341_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's ninth array is the program's result array. -/
theorem arrRef_result : Pipeline.arrRef spec1 8 = main_v9 := rfl

-- matching the launch lemma's conclusion against this statement needs definitions unfolded inside the types of its
-- arguments that are still to be found; the option below allows that
set_option backward.isDefEq.respectTransparency.types false in
/-- Every weakly fair execution terminates; at the end the result array holds what the second region's write-backs
    leave, and the arguments are as launched. -/
theorem run_named : θ_run defs (onTc (τ := τ) (main (F := F))) ⟨m, fun _ => 0, ρ⟩ (fun r => ∀ c : Dev nD,
      r.2.mem ((c.tc : Thread nD τ).loc main_v9) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v9 (by decide))).trans (W3_arr m ρ c 8),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.RunNamed

end
-- ==== Proof.KvCases.lean ====
/-
  What the first kernel's body leaves in its output block, case by case, for any float values.

  The body reads the position block x0 : [1, 512, 512], the two weight matrices x1, x2 : [512, 2048] and the output
  block itself, and stores once: the old block plus this tile's column sums. At the first tile of a batch it first
  stores the zero block and reads that back, so there the "old block" is zero.
-/
import proofs.«108265_j37366215475341_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KvCases

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile of a batch: the block that held `xo` ends holding the body's one store over `xo`. -/
theorem out_B (c : Dev nD) (i : grid0.Coords) (a2 : Memref sig .tc .vmem S1x512x512 .f32) (h2 : a2.IsWhole)
    (a3 : Memref sig .tc .vmem S512x2048 .bf16) (h3 : a3.IsWhole) (a4 : Memref sig .tc .vmem S512x2048 .bf16) (h4 : a4.IsWhole)
    (a5 : Memref sig .tc .vmem S1x1x2048 .f32) (h5 : a5.IsWhole) (hc : ¬cond0_0 i)
    (x0 : Vec F S1x512x512 .f32) (x1 x2 : Vec F S512x2048 .bf16) (xo : Vec F S1x1x2048 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S1x512x512) hz3, View.ld_unit_zero (S := S512x2048) hz2, View.ld_unit_zero (S := S1x1x2048) hz3]

/-- The first tile of a batch: the zero block is stored, read back, and the body's store goes over it. -/
theorem out_A (c : Dev nD) (i : grid0.Coords) (a2 : Memref sig .tc .vmem S1x512x512 .f32) (h2 : a2.IsWhole)
    (a3 : Memref sig .tc .vmem S512x2048 .bf16) (h3 : a3.IsWhole) (a4 : Memref sig .tc .vmem S512x2048 .bf16) (h4 : a4.IsWhole)
    (a5 : Memref sig .tc .vmem S1x1x2048 .f32) (h5 : a5.IsWhole) (hc : cond0_0 i)
    (x0 : Vec F S1x512x512 .f32) (x1 x2 : Vec F S512x2048 .bf16) :
    out0_A_3 c i a2 h2 a3 h3 a4 h4 a5 h5 hc x0 x1 x2 = k0_pay2 x0 x1 x2 k0_pay1 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread,
    View.ld_unit_zero (S := S1x512x512) hz3, View.ld_unit_zero (S := S512x2048) hz2, View.ld_unit_zero (S := S1x1x2048) hz3]

end Cert.KernelIdeal.KvCases

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.LibColSum.lean ====
/-
  The sum down a matrix's columns read at an index, over the extended reals: a reduction by + over axis 0 of an
  [a, b] array, folded from the zero word, is at column j the sum over the rows k of the entry (k, j).
-/
import proofs.«108265_j37366215475341_1_alg».proof.Proof.LibCols

noncomputable section

namespace Cert.LibColSum

open Idealize.ShloMosaic Idealize.ShloMosaic.ValueIdx

/-- The sum down a matrix's columns: at column `j`, the sum over the column. -/
theorem colSum_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] ⟨1, ![b]⟩ X acc h hφ hacc (ix1 j) = ∑ k : Fin a, X (ix2 k j) := by
  refine (Ideal.multiReduction_add_single X acc h hφ hacc (ix1 j)).trans ?_
  exact Finset.sum_congr rfl fun k _ => congrArg X (Cert.LibCols.lift_col h j k)

end Cert.LibColSum

end
-- ==== Proof.KvTile.lean ====
/-
  One tile of the first kernel, index by index, over the extended reals.

  With the position block x0 : [1, 512, 512] (512 rows of one batch), the key and value weights x1, x2 : [512, 2048]
  and the block's old contents xo : [1, 1, 2048], the body stores, at column e,
      xo(e) + Σ_r kvTerm(row r of x0)(e):
  each row's key projection scaled to unit length, times its value projection, summed down the 512 rows of the tile.
  The block the first tile of a batch stores beforehand is zero.
-/
import proofs.«108265_j37366215475341_1_alg».proof.Proof.Gen.KernelIdeal.Skeleton
import proofs.«108265_j37366215475341_1_alg».proof.Proof.Spec
import proofs.«108265_j37366215475341_1_alg».proof.Proof.LibDense
import proofs.«108265_j37366215475341_1_alg».proof.Proof.LibRows
import proofs.«108265_j37366215475341_1_alg».proof.Proof.LibColSum
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.KvTile

open Cert.KernelIdeal Cert.KernelIdeal.Gen

/-- The position block against a [512, 2048] weight matrix on the matrix unit, at row r and column e: the row's
    projection. -/
theorem proj_apply (x0 : Vec Ideal S1x512x512 .f32) (w : Vec Ideal S512x2048 .bf16) (r : Fin 512) (e : Fin 2048) :
    matmul (F := Ideal) dot_S512x512_S512x2048_S512x2048_1_0_0_1_n_n none
        (truncf .bf16 (shapeCast S512x512 x0 shapeCasts_S1x512x512_S512x512) bitsLt_bf16_f32)
        (shapeCast S512x2048 w shapeCasts_S512x2048_S512x2048 : FVec Ideal S512x2048 .bf16) (constant S512x2048 .f32 0x00000000#32) (ix2 r e)
      = Hydra.rowProj (fun d => x0 (ix3 (0 : Fin 1) r d)) (fun d e => w (ix2 d e)) e := by
  rw [shapeCast_self]
  refine (Cert.LibDense.matmul_zero_plain (M := 512) (K := 512) (N := 2048) (φ₁ := .bf16) (φ₂ := .bf16)
    dot_S512x512_S512x2048_S512x2048_1_0_0_1_n_n.wf none _ _ r e).trans ?_
  unfold Hydra.rowProj
  refine Finset.sum_congr rfl fun d _ => ?_
  rw [truncf_apply, shapeCast_1ab_ab_apply]

/-- A [512, 2048] matrix K with every row divided by its length (kept at least eps): at row r and column e, the
    unit row of row r. -/
theorem unit_apply (K : FVec Ideal S512x2048 .f32) (r : Fin 512) (e : Fin 2048) :
    divf K (broadcastTo S512x2048 (maximumf (sqrt (shapeCast S512x1 (multiReduction (F := Ideal) .add [1] S512 (mulf K K) 0x00000000#32 reduces_S512x2048_S512 (.inl rfl) rfl) shapeCasts_S512_S512x1)) (broadcast S512x1 (Scalar.ofBits (F := Ideal) .f32 0x2B8CBCCC#32))) broadcasts_S512x1_S512x2048) (ix2 r e)
      = Hydra.unitRow (fun e => K (ix2 r e)) e := by
  rw [divf_apply, Cert.LibRows.broadcastTo_a1_ab_apply, maximumf_apply, broadcast_apply]
  show Ideal.div _ (max (Ideal.sqrt (shapeCast S512x1 _ shapeCasts_S512_S512x1 (ix2 r (0 : Fin 1)))) (Ideal.ofBits .f32 0x2B8CBCCC#32)) = _
  rw [Cert.LibRows.shapeCast_a_a1_apply]
  have hs : multiReduction (F := Ideal) .add [1] S512 (mulf K K) 0x00000000#32 reduces_S512x2048_S512 (.inl rfl) rfl (ix1 r)
      = ∑ k : Fin 2048, (mulf K K) (ix2 r k) :=
    Cert.LibRows.rowSum_apply (mulf K K) 0x00000000#32 reduces_S512x2048_S512 (.inl rfl) rfl r
  exact congrArg (fun z => Ideal.div (K (ix2 r e)) (max (Ideal.sqrt z) (Ideal.ofBits .f32 0x2B8CBCCC#32))) hs

/-- The store's value from the two projected matrices K (keys) and W (values) and the old block: at column e, the old
    entry plus the sum down the rows of the unit key row times the value row. -/
theorem colterm_apply (K W : FVec Ideal S512x2048 .f32) (xo : Vec Ideal S1x1x2048 .f32) (e : Fin 2048) :
    shapeCast S1x1x2048 (addf (shapeCast S1x2048 xo shapeCasts_S1x1x2048_S1x2048 : FVec Ideal S1x2048 .f32)
        (shapeCast S1x2048 (multiReduction (F := Ideal) .add [0] S2048
          (mulf (divf K (broadcastTo S512x2048 (maximumf (sqrt (shapeCast S512x1 (multiReduction (F := Ideal) .add [1] S512 (mulf K K) 0x00000000#32 reduces_S512x2048_S512 (.inl rfl) rfl) shapeCasts_S512_S512x1)) (broadcast S512x1 (Scalar.ofBits (F := Ideal) .f32 0x2B8CBCCC#32))) broadcasts_S512x1_S512x2048)) W)
          0x00000000#32 reduces_S512x2048_S2048 (.inl rfl) rfl) shapeCasts_S2048_S1x2048))
        shapeCasts_S1x2048_S1x1x2048 (ix3 (0 : Fin 1) (0 : Fin 1) e)
      = xo (ix3 (0 : Fin 1) (0 : Fin 1) e) + ∑ r : Fin 512, Hydra.unitRow (fun e => K (ix2 r e)) e * W (ix2 r e) := by
  rw [shapeCast_ab_1ab_apply, addf_apply, shapeCast_1ab_ab_apply, shapeCast_a_1a_apply]
  refine congrArg (xo (ix3 (0 : Fin 1) (0 : Fin 1) e) + ·) ?_
  refine (Cert.LibColSum.colSum_apply _ 0x00000000#32 reduces_S512x2048_S2048 (.inl rfl) rfl e).trans ?_
  refine Finset.sum_congr rfl fun r _ => ?_
  rw [mulf_apply, unit_apply]

/-- The block stored at the first tile of a batch is zero. -/
theorem pay1_apply (i : S1x1x2048.Idx) : k0_pay1 (F := Ideal) i = 0 := by
  obtain ⟨u, v, e, rfl⟩ : ∃ (u : Fin 1) (v : Fin 1) (e : Fin 2048), i = ix3 u v e := ⟨i 0, i 1, i 2, eq_ix3 i⟩
  unfold k0_pay1
  rw [shapeCast_ab_1ab_apply, broadcast_apply]
  exact Ideal.ofBits_zero_f32

/-- THE TILE: the body's store at column e is the old entry plus the tile's 512 shares. -/
theorem pay2_apply (x0 : Vec Ideal S1x512x512 .f32) (x1 x2 : Vec Ideal S512x2048 .bf16) (xo : Vec Ideal S1x1x2048 .f32)
    (e : Fin 2048) :
    k0_pay2 (F := Ideal) x0 x1 x2 xo (ix3 (0 : Fin 1) (0 : Fin 1) e)
      = xo (ix3 (0 : Fin 1) (0 : Fin 1) e)
        + ∑ r : Fin 512, Hydra.kvTerm (fun d => x0 (ix3 (0 : Fin 1) r d)) (fun d e => x1 (ix2 d e)) (fun d e => x2 (ix2 d e)) e := by
  unfold k0_pay2
  refine (colterm_apply _ _ xo e).trans ?_
  refine congrArg (xo (ix3 (0 : Fin 1) (0 : Fin 1) e) + ·) (Finset.sum_congr rfl fun r _ => ?_)
  unfold Hydra.kvTerm
  rw [proj_apply x0 x2 r e]
  refine congrArg (· * _) ?_
  exact congrArg (fun y => Hydra.unitRow y e) (funext fun e' => proj_apply x0 x1 r e')

end Cert.KernelIdeal.KvTile

end
-- ==== Proof.LibTileSum.lean ====
/-
  General lemmas about a sum accumulated tile by tile.
  * `sum_fin_mul`: a sum over i < a of sums over j < b of h (i·b + j) is the sum of h over all n < a·b.
  * `acc_closed`: an accumulator that restarts from zero every K-th step and otherwise adds the step's term holds,
    at step K·p + k (k < K), the sum of the terms of steps K·p … K·p + k.
-/
import Mathlib

namespace Cert.Lib.TileSum

open Finset

/-- A double sum over a grid of a·b cells, row by row, is the sum over the flattened cell number. -/
theorem sum_fin_mul {M : Type*} [AddCommMonoid M] (a b : ℕ) (h : ℕ → M) :
    ∑ i : Fin a, ∑ j : Fin b, h (i.val * b + j.val) = ∑ n : Fin (a * b), h n.val := by
  rw [← Fintype.sum_prod_type (f := fun q : Fin a × Fin b => h (q.1.val * b + q.2.val))]
  rw [← Equiv.sum_comp finProdFinEquiv (fun n : Fin (a * b) => h n.val)]
  refine Finset.sum_congr rfl fun q _ => ?_
  obtain ⟨x, y⟩ := q
  show h (x.val * b + y.val) = h (finProdFinEquiv (x, y)).val
  congr 1
  simp [finProdFinEquiv]
  ring

/-- An accumulator restarted every K steps: its value inside period p. -/
theorem acc_closed {M : Type*} [AddCommMonoid M] (K : ℕ) (hK : 0 < K) (f : ℕ → M) (acc : ℕ → M)
    (h0 : acc 0 = 0 + f 0)
    (hs : ∀ n, acc (n + 1) = if (n + 1) % K = 0 then 0 + f (n + 1) else acc n + f (n + 1))
    (p k : ℕ) (hk : k < K) : acc (K * p + k) = ∑ j ∈ Finset.range (k + 1), f (K * p + j) := by
  induction k with
  | zero =>
    rw [Finset.sum_range_one, Nat.add_zero]
    cases hp : K * p with
    | zero => rw [h0, zero_add]
    | succ m =>
      have hm : (m + 1) % K = 0 := by rw [← hp]; exact Nat.mul_mod_right K p
      rw [hs m, if_pos hm, zero_add]
  | succ k ih =>
    have e : K * p + (k + 1) = (K * p + k) + 1 := by ring
    have hne : ¬ ((K * p + k) + 1) % K = 0 := by
      have : ((K * p + k) + 1) % K = k + 1 := by
        rw [Nat.add_assoc, Nat.mul_add_mod, Nat.mod_eq_of_lt hk]
      omega
    rw [e, hs, if_neg hne, ih (by omega), Finset.sum_range_succ (fun j => f (K * p + j)) (k + 1)]
    rfl

end Cert.Lib.TileSum
-- ==== Proof.KvAccum.lean ====
/-
  The first kernel's result array: the key-value summary of every batch.

  The grid has 64 points, point n working on batch n / 8 and on tile n % 8 of that batch's 4096 positions (512
  positions a tile). The output block of batch b is carried from tile to tile: the first tile starts it from zero,
  every tile adds its 512 shares, and the block is written back after the eighth tile. So after point n the block
  holds the shares of tiles 0 … n % 8 of batch n / 8 (by induction on n), and what is written back for batch b is
  the sum over all 8 · 512 = 4096 positions: kvSum at batch b.
-/
import proofs.«108265_j37366215475341_1_alg».proof.Proof.Gen.KernelIdeal.Frame
import proofs.«108265_j37366215475341_1_alg».proof.Proof.Spec
import proofs.«108265_j37366215475341_1_alg».proof.Proof.KvCases
import proofs.«108265_j37366215475341_1_alg».proof.Proof.KvTile
import proofs.«108265_j37366215475341_1_alg».proof.Proof.LibTileSum
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KvValue

open Cert.KernelIdeal Cert.KernelIdeal.Gen

variable (V : (c : Dev nD) → (b : Ref sig .tc) → Buf (Elt Ideal) ((c : Thread nD τ).loc b))

/-- The block indices of the four windows at grid point t: the position block is (t / 8, t % 8, 0), the weights'
    blocks are the whole matrices, the output block is (t / 8, 0, 0). -/
theorem idx0 : ∀ t : Fin cfg0.N, win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- Row r of the position block at point t is position (t % 8) · 512 + r of batch t / 8. -/
theorem xblk (c : Dev nD) (t : Fin cfg0.N) (r d : Fin 512) (b : Fin 8) (s : Fin 4096) (hb : b.val = t.val / 8)
    (hs : s.val = t.val % 8 * 512 + r.val) :
    iblk0 V c 0 t (ix3 (0 : Fin 1) r d) = V c main_arg0 (ix3 b s d) := by
  obtain ⟨e0, e1, e2, -⟩ := idx0 t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 512 + 1 * d.val = d.val; omega

/-- The key weights' block is the whole matrix. -/
theorem wkblk (c : Dev nD) (t : Fin cfg0.N) (d : Fin 512) (e : Fin 2048) :
    iblk0 V c 1 t (ix2 d e) = V c main_v1 (ix2 d e) := by
  obtain ⟨-, -, -, e0, e1, -⟩ := idx0 t
  unfold iblk0
  rw [View.read_apply]
  show V c main_v1 _ = V c main_v1 _
  congr 1
  funext a
  apply Fin.ext
  match a with
  | ⟨0, _⟩ => show win0_1.index t (0 : Fin 2) * 512 + 1 * d.val = d.val; omega
  | ⟨1, _⟩ => show win0_1.index t (1 : Fin 2) * 2048 + 1 * e.val = e.val; omega

/-- The value weights' block is the whole matrix. -/
theorem wvblk (c : Dev nD) (t : Fin cfg0.N) (d : Fin 512) (e : Fin 2048) :
    iblk0 V c 2 t (ix2 d e) = V c main_v2 (ix2 d e) := by
  obtain ⟨-, -, -, -, -, e0, e1, -⟩ := idx0 t
  unfold iblk0
  rw [View.read_apply]
  show V c main_v2 _ = V c main_v2 _
  congr 1
  funext a
  apply Fin.ext
  match a with
  | ⟨0, _⟩ => show win0_2.index t (0 : Fin 2) * 512 + 1 * d.val = d.val; omega
  | ⟨1, _⟩ => show win0_2.index t (1 : Fin 2) * 2048 + 1 * e.val = e.val; omega

/-- The arrays as the region finds them, by coordinates. -/
abbrev X (c : Dev nD) : Fin 8 → Fin 4096 → Fin 512 → EReal := fun b s d => V c main_arg0 (ix3 b s d)
abbrev WK (c : Dev nD) : Fin 512 → Fin 2048 → EReal := fun d e => V c main_v1 (ix2 d e)
abbrev WV (c : Dev nD) : Fin 512 → Fin 2048 → EReal := fun d e => V c main_v2 (ix2 d e)

/-- Position s of batch b by natural numbers (zero outside the array). -/
def rowN (c : Dev nD) (b s : ℕ) : Fin 512 → EReal :=
  fun d => if h : b < 8 ∧ s < 4096 then X V c ⟨b, h.1⟩ ⟨s, h.2⟩ d else 0

/-- That position's share of the summary, at column e. -/
def termN (c : Dev nD) (e : Fin 2048) (b s : ℕ) : EReal := Hydra.kvTerm (rowN V c b s) (WK V c) (WV V c) e

/-- The 512 shares of the tile of grid point n. -/
def tileN (c : Dev nD) (e : Fin 2048) (n : ℕ) : EReal := ∑ r : Fin 512, termN V c e (n / 8) (n % 8 * 512 + r.val)

/-- The tile's shares, read through the windows' blocks at point t. -/
theorem tile_eq (c : Dev nD) (t : Fin cfg0.N) (e : Fin 2048) :
    ∑ r : Fin 512, Hydra.kvTerm (fun d => iblk0 V c 0 t (ix3 (0 : Fin 1) r d)) (fun d e => iblk0 V c 1 t (ix2 d e))
        (fun d e => iblk0 V c 2 t (ix2 d e)) e = tileN V c e t.val := by
  have ht : t.val < 64 := by have hN : cfg0.N = 64 := N_0; have := t.isLt; omega
  refine Finset.sum_congr rfl fun r _ => ?_
  have hx : (fun d => iblk0 V c 0 t (ix3 (0 : Fin 1) r d)) = rowN V c (t.val / 8) (t.val % 8 * 512 + r.val) := by
    funext d
    have hr := r.isLt
    have hbs : t.val / 8 < 8 ∧ t.val % 8 * 512 + r.val < 4096 := ⟨by omega, by omega⟩
    unfold rowN
    rw [dif_pos hbs]
    exact xblk V c t r d ⟨t.val / 8, hbs.1⟩ ⟨t.val % 8 * 512 + r.val, hbs.2⟩ rfl rfl
  have hk : (fun d e => iblk0 V c 1 t (ix2 d e)) = WK V c := funext fun d => funext fun e => wkblk V c t d e
  have hv : (fun d e => iblk0 V c 2 t (ix2 d e)) = WV V c := funext fun d => funext fun e => wvblk V c t d e
  rw [hx, hk, hv]
  rfl

/-- THE ACCUMULATION: after point n the carried block holds, at column e, the tiles 0 … n % 8 of batch n / 8. -/
theorem outsAt_closed (c : Dev nD) (e : Fin 2048) : ∀ (n : ℕ) (h : n < cfg0.N),
    outsAt0 V c n h (ix3 (0 : Fin 1) (0 : Fin 1) e) = ∑ j ∈ Finset.range (n % 8 + 1), tileN V c e (8 * (n / 8) + j)
  | 0, h => by
    rw [outsAt0_A V c ⟨0, h⟩ rfl, KvCases.out_A, KvTile.pay2_apply, KvTile.pay1_apply, zero_add, tile_eq]
    simp
  | n + 1, h => by
    by_cases h0 : (n + 1) % 8 = 0
    · rw [outsAt0_A V c ⟨n + 1, h⟩ h0, KvCases.out_A, KvTile.pay2_apply, KvTile.pay1_apply, zero_add, tile_eq]
      show tileN V c e (n + 1) = _
      have h3 : 8 * ((n + 1) / 8) + 0 = n + 1 := by omega
      rw [h0, Finset.sum_range_one, h3]
    · rw [outsAt0_B V c ⟨n + 1, h⟩ h0, KvCases.out_B, KvTile.pay2_apply, tile_eq]
      show outsAt0 V c n _ (ix3 (0 : Fin 1) (0 : Fin 1) e) + tileN V c e (n + 1) = _
      rw [outsAt_closed c e n]
      have h1 : (n + 1) % 8 = n % 8 + 1 := by omega
      have h2 : (n + 1) / 8 = n / 8 := by omega
      have h3 : 8 * (n / 8) + (n % 8 + 1) = n + 1 := by omega
      rw [h1, h2, Finset.sum_range_succ (fun j => tileN V c e (8 * (n / 8) + j)) (n % 8 + 1), h3]

/-- The eight tiles of batch b add up to the sum over its 4096 positions. -/
theorem sum_tiles (c : Dev nD) (e : Fin 2048) (b : Fin 8) :
    ∑ j ∈ Finset.range 8, tileN V c e (8 * b.val + j) = Hydra.kvSum (X V c) (WK V c) (WV V c) b e := by
  rw [Finset.sum_range]
  have hb := b.isLt
  have ht : ∀ j : Fin 8, tileN V c e (8 * b.val + j.val) = ∑ r : Fin 512, termN V c e b.val (j.val * 512 + r.val) := by
    intro j
    have hj := j.isLt
    unfold tileN
    rw [show (8 * b.val + j.val) / 8 = b.val by omega, show (8 * b.val + j.val) % 8 = j.val by omega]
  rw [Finset.sum_congr rfl fun j _ => ht j, Cert.Lib.TileSum.sum_fin_mul 8 512 (fun n => termN V c e b.val n)]
  show ∑ s : Fin 4096, termN V c e b.val s.val = ∑ s : Fin 4096, Hydra.kvTerm (X V c b s) (WK V c) (WV V c) e
  refine Finset.sum_congr rfl fun s _ => ?_
  unfold termN
  have hr : rowN V c b.val s.val = X V c b s := by
    funext d
    unfold rowN
    rw [dif_pos ⟨b.isLt, s.isLt⟩]
  rw [hr]

/-- The summary array: at (b, 0, e), kvSum of batch b at column e, of the arrays as the region finds them. -/
abbrev KV (c : Dev nD) : Buf (Elt Ideal) ((c : Thread nD τ).loc main_v8) :=
  fun i => Hydra.kvSum (X V c) (WK V c) (WV V c) ⟨(i 0).val, (i 0).isLt⟩ ⟨(i 2).val, (i 2).isLt⟩

/-- What is written back after the eighth tile of a batch is that batch's block of the summary array. -/
theorem flushed_eq (c : Dev nD) (t : Fin cfg0.N) (hf : (cfg0.win 3).flush t = true) :
    (dat0 V c).flushed 3 t = ((cfg0.win 3).blk t).view.read (Elt Ideal) (KV V c) := by
  have hN : cfg0.N = 64 := N_0
  have h7 : t.val % 8 = 7 := (flush0_3 t).mp hf
  have htl := t.isLt
  obtain ⟨-, -, -, -, -, -, -, e0, e1, e2⟩ := idx0 t
  show (cfg0.win 3).cut (grid0.coords t) ((dat0 V c).after 3 t) = _
  rw [after0_3]
  funext y
  obtain ⟨u, v, e, rfl⟩ : ∃ (u : Fin 1) (v : Fin 1) (e : Fin 2048), y = ix3 u v e := ⟨y 0, y 1, y 2, eq_ix3 y⟩
  obtain rfl : u = 0 := Fin.ext (by omega)
  obtain rfl : v = 0 := Fin.ext (by omega)
  rw [View.read_apply]
  show outsAt0 V c t.val t.isLt (ix3 (0 : Fin 1) (0 : Fin 1) e) = KV V c _
  rw [outsAt_closed V c e t.val t.isLt, h7]
  have hb : t.val / 8 < 8 := by omega
  rw [sum_tiles V c e ⟨t.val / 8, hb⟩]
  show Hydra.kvSum (X V c) (WK V c) (WV V c) _ _ = Hydra.kvSum (X V c) (WK V c) (WV V c) _ _
  congr 1
  · apply Fin.ext
    show t.val / 8 = win0_3.index t (0 : Fin 3) * 1 + 1 * 0
    omega
  · apply Fin.ext
    show e.val = win0_3.index t (2 : Fin 3) * 2048 + 1 * e.val
    omega

/-- An index of the summary array is in point t's block iff each coordinate is in the block's range. -/
theorem mem_blk (t : Fin cfg0.N) (i : S8x1x2048.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v8).slice (win0_3.rect t)).set ↔ _
  rw [View.set_slice_whole, Rect.mem_set_unit]
  exact Iff.rfl

/-- THE SUMMARY ARRAY after the first region: kvSum of every batch. -/
theorem final0 (c : Dev nD) : (dat0 V c).arrAt 3 cfg0.N = KV V c :=
  (dat0 V c).arrAt_eq_of_cover 3 (KV V c) (flushed_eq V c) fun i => by
    have hN : cfg0.N = 64 := N_0
    have hi0 : (i 0).val < 8 := (i 0).isLt
    have hi1 : (i 1).val < 1 := (i 1).isLt
    have hi2 : (i 2).val < 2048 := (i 2).isLt
    refine ⟨⟨8 * (i 0).val + 7, by omega⟩, (flush0_3 _).mpr (by show (8 * (i 0).val + 7) % 8 = 7; omega), ?_⟩
    rw [mem_blk]
    obtain ⟨-, -, -, -, -, -, -, e0, e1, e2⟩ := idx0 ⟨8 * (i 0).val + 7, by omega⟩
    intro a
    match a with
    | ⟨0, _⟩ => show win0_3.index _ (0 : Fin 3) * 1 ≤ (i 0).val ∧ (i 0).val < win0_3.index _ (0 : Fin 3) * 1 + 1
                rw [e0]; show (8 * (i 0).val + 7) / 8 * 1 ≤ (i 0).val ∧ (i 0).val < (8 * (i 0).val + 7) / 8 * 1 + 1; omega
    | ⟨1, _⟩ => show win0_3.index _ (1 : Fin 3) * 1 ≤ (i 1).val ∧ (i 1).val < win0_3.index _ (1 : Fin 3) * 1 + 1
                rw [e1]; omega
    | ⟨2, _⟩ => show win0_3.index _ (2 : Fin 3) * 2048 ≤ (i 2).val ∧ (i 2).val < win0_3.index _ (2 : Fin 3) * 2048 + 2048
                rw [e2]; omega

end Cert.KernelIdeal.KvValue

end
-- ==== Proof.FinalBlock.lean ====
/-
  The second kernel's body on one block of 512 positions, read entry by entry.

  The block holds 512 positions of one batch. For position p the body forms the query row (the position's row
  against wq), scales it to unit length (its Euclidean length kept at least ε), multiplies it entrywise by the
  batch's key-value summary row, takes the result against wo and adds the position's row back: the attention row.
  A dense layer with bias clipped below at zero, a second dense layer with bias, and the attention row added back
  give the output row. Each stage is read at an index over variables of the literal vector types; the last theorem
  says the buffer the body leaves holds, at (0, p, q), the specification's layerRow of position p at q.

  At the extended reals the roundings to the 16-bit format are the identity, a matrix product into the zero
  accumulator is the plain sum over the contracted index, and a sum along a matrix's rows is the Fin-indexed sum.
-/
import proofs.«108265_j37366215475341_1_alg».proof.Proof.Spec
import proofs.«108265_j37366215475341_1_alg».proof.Proof.LibDense
import proofs.«108265_j37366215475341_1_alg».proof.Proof.LibRows
import proofs.«108265_j37366215475341_1_alg».proof.Proof.Gen.KernelIdeal.Frame
import Idealize.ShloMosaic.Lib.ValueLayout

noncomputable section

namespace Cert.KernelIdeal.FinalBlock

open Cert.KernelIdeal Cert.KernelIdeal.Gen Idealize.ShloMosaic Idealize.ShloMosaic.ValueIdx

/-! ## The two matrix products -/

/-- A [512, 512] by [512, 2048] product into the zero accumulator, read at (i, j): the sum over the 512 contracted
    coordinates. -/
theorem mm_in (l : FVec Ideal S512x512 .bf16) (r : FVec Ideal S512x2048 .bf16) (i : Fin 512) (j : Fin 2048) :
    matmul dot_S512x512_S512x2048_S512x2048_1_0_0_1_n_n none l r (constant (F := Ideal) S512x2048 .f32 0x00000000#32) (ix2 i j)
      = ∑ k : Fin 512, l (ix2 i k) * r (ix2 k j) :=
  Cert.LibDense.matmul_zero_plain (M := 512) (K := 512) (N := 2048) Gen.dot_S512x512_S512x2048_S512x2048_1_0_0_1_n_n_wf none l r i j

/-- A [512, 2048] by [2048, 512] product into the zero accumulator, read at (i, j): the sum over the 2048 contracted
    coordinates. -/
theorem mm_out (l : FVec Ideal S512x2048 .bf16) (r : FVec Ideal S2048x512 .bf16) (i : Fin 512) (j : Fin 512) :
    matmul dot_S512x2048_S2048x512_S512x512_1_0_0_1_n_n none l r (constant (F := Ideal) S512x512 .f32 0x00000000#32) (ix2 i j)
      = ∑ k : Fin 2048, l (ix2 i k) * r (ix2 k j) :=
  Cert.LibDense.matmul_zero_plain (M := 512) (K := 2048) (N := 512) Gen.dot_S512x2048_S2048x512_S512x512_1_0_0_1_n_n_wf none l r i j

/-! ## The query row and its unit row -/

/-- The block's positions against a [512, 2048] weight, read at (p, e): position p's row against column e. -/
theorem proj_apply (x0 : Vec Ideal S1x512x512 .f32) (w : Vec Ideal S512x2048 .bf16) (p : Fin 512) (e : Fin 2048) :
    matmul dot_S512x512_S512x2048_S512x2048_1_0_0_1_n_n none
        (truncf .bf16 (shapeCast S512x512 x0 Gen.shapeCasts_S1x512x512_S512x512) Gen.bitsLt_bf16_f32)
        (shapeCast S512x2048 w Gen.shapeCasts_S512x2048_S512x2048 : FVec Ideal S512x2048 .bf16)
        (constant (F := Ideal) S512x2048 .f32 0x00000000#32) (ix2 p e)
      = Hydra.rowProj (fun d => x0 (ix3 (0 : Fin 1) p d)) (fun d e => w (ix2 d e)) e := by
  refine (mm_in _ _ p e).trans ?_
  unfold Hydra.rowProj
  refine Finset.sum_congr rfl fun d _ => ?_
  refine congrArg₂ (· * ·) ?_ (congrFun (shapeCast_self w _) (ix2 d e))
  exact (truncf_apply (ψ := .bf16) _ Gen.bitsLt_bf16_f32 _).trans (shapeCast_1ab_ab_apply x0 _ p d)

/-- A [512, 2048] matrix with every row divided by its Euclidean length (kept at least ε), read at (p, e): the unit
    row of row p at e. -/
theorem unit_apply (y : FVec Ideal S512x2048 .f32) (hφ : FKind.Formats .f32)
    (hacc : (0x00000000#32 : BitVec 32) = FKind.add.neutral .f32 hφ) (p : Fin 512) (e : Fin 2048) :
    divf y (broadcastTo S512x2048
        (maximumf
          (sqrt (shapeCast S512x1
            (multiReduction (F := Ideal) .add [1] S512 (mulf y y) 0x00000000#32 Gen.reduces_S512x2048_S512 hφ hacc)
            Gen.shapeCasts_S512_S512x1))
          (broadcast S512x1 (FloatOps.ofBits (F := Ideal) .f32 0x2B8CBCCC#32)))
        Gen.broadcasts_S512x1_S512x2048) (ix2 p e)
      = Hydra.unitRow (fun e => y (ix2 p e)) e := by
  unfold Hydra.unitRow Hydra.rowLen Hydra.eps
  refine (divf_apply _ _ _).trans ?_
  refine congrArg (Ideal.div _) ?_
  refine (Cert.LibRows.broadcastTo_a1_ab_apply _ _ p e).trans ?_
  refine (maximumf_apply _ _ _).trans ?_
  refine congrArg₂ max ?_ rfl
  show Ideal.sqrt (shapeCast S512x1 _ _ (ix2 p (0 : Fin 1))) = _
  refine congrArg Ideal.sqrt ?_
  refine (Cert.LibRows.shapeCast_a_a1_apply _ _ p 0).trans ?_
  exact Cert.LibRows.rowSum_apply _ _ _ hφ hacc p

/-! ## The attention row -/

/-- The body's attention stage read at (p, d): the attention row of position p, with its residual, at d. -/
theorem pay2_apply (x0 : Vec Ideal S1x512x512 .f32) (x1 : Vec Ideal S512x2048 .bf16) (x7 : Vec Ideal S1x1x2048 .f32)
    (x2 : Vec Ideal S2048x512 .bf16) (p d : Fin 512) :
    k1_pay2 (F := Ideal) x0 x1 x7 x2 (ix2 p d)
      = Hydra.attnRow (fun d => x0 (ix3 (0 : Fin 1) p d)) (fun d e => x1 (ix2 d e)) (fun e => x7 (ix3 (0 : Fin 1) (0 : Fin 1) e))
          (fun e d => x2 (ix2 e d)) d := by
  unfold k1_pay2
  dsimp only
  unfold Hydra.attnRow
  refine (addf_apply _ _ _).trans ?_
  refine congrArg₂ (· + ·) ?_ (shapeCast_1ab_ab_apply x0 _ p d)
  refine (mm_out _ _ p d).trans ?_
  refine Finset.sum_congr rfl fun e _ => ?_
  refine congrArg₂ (· * ·) ?_ (congrFun (shapeCast_self x2 _) (ix2 e d))
  refine (truncf_apply (ψ := .bf16) _ Gen.bitsLt_bf16_f32 _).trans ?_
  refine (mulf_apply _ _ _).trans ?_
  refine congrArg₂ (· * ·) ?_ ?_
  · refine (unit_apply _ _ _ p e).trans ?_
    exact congrArg (fun y => Hydra.unitRow y e) (funext fun e' => proj_apply x0 x1 p e')
  · refine (broadcastTo_1b_ab_apply _ _ p e).trans ?_
    exact shapeCast_1ab_ab_apply x7 _ (0 : Fin 1) e

/-! ## The feed-forward layer -/

/-- The body's hidden stage read at (p, e): the hidden layer of position p's attention row at e. -/
theorem pay3_apply (x0 : Vec Ideal S1x512x512 .f32) (x1 : Vec Ideal S512x2048 .bf16) (x7 : Vec Ideal S1x1x2048 .f32)
    (x2 : Vec Ideal S2048x512 .bf16) (x3 : Vec Ideal S512x2048 .bf16) (x5 : Vec Ideal S1x2048 .f32)
    (p : Fin 512) (e : Fin 2048) :
    k1_pay3 (F := Ideal) x0 x1 x7 x2 x3 x5 (ix2 p e)
      = Hydra.hidden
          (Hydra.attnRow (fun d => x0 (ix3 (0 : Fin 1) p d)) (fun d e => x1 (ix2 d e))
            (fun e => x7 (ix3 (0 : Fin 1) (0 : Fin 1) e)) (fun e d => x2 (ix2 e d)))
          (fun d e => x3 (ix2 d e)) (fun e => x5 (ix2 (0 : Fin 1) e)) e := by
  unfold k1_pay3
  unfold Hydra.hidden
  refine (truncf_apply (ψ := .bf16) _ Gen.bitsLt_bf16_f32 _).trans ?_
  refine (maximumf_apply _ _ _).trans ?_
  refine congrArg₂ max ?_ ?_
  · refine (addf_apply _ _ _).trans ?_
    refine congrArg₂ (· + ·) ?_ ?_
    · refine (mm_in _ _ p e).trans ?_
      refine Finset.sum_congr rfl fun d _ => ?_
      refine congrArg₂ (· * ·) ?_ (congrFun (shapeCast_self x3 _) (ix2 d e))
      exact (truncf_apply (ψ := .bf16) _ Gen.bitsLt_bf16_f32 _).trans (pay2_apply x0 x1 x7 x2 p d)
    · refine (broadcastTo_1b_ab_apply _ _ p e).trans ?_
      exact congrFun (shapeCast_self x5 _) (ix2 (0 : Fin 1) e)
  · show Ideal.ofBits .f32 0x00000000#32 = 0
    exact Ideal.ofBits_zero_f32

/-- The value the body stores, read at (0, p, q), over variables for the three values it is formed from: the hidden
    row against column q of the second weight, plus the bias at q, plus the attention row at q. -/
theorem pay1_apply (v22 : FVec Ideal S512x512 .f32) (v33 : FVec Ideal S512x2048 .bf16) (v35 : FVec Ideal S2048x512 .bf16)
    (v37 : Vec Ideal S1x512 .f32) (p q : Fin 512) :
    k1_pay1 (F := Ideal) v22 v33 v35 v37 (ix3 (0 : Fin 1) p q)
      = ((∑ e : Fin 2048, v33 (ix2 p e) * v35 (ix2 e q)) + v37 (ix2 (0 : Fin 1) q)) + v22 (ix2 p q) := by
  unfold k1_pay1
  refine (shapeCast_ab_1ab_apply _ _ (0 : Fin 1) p q).trans ?_
  refine (addf_apply _ _ _).trans ?_
  refine congrArg₂ (· + ·) ?_ rfl
  refine (addf_apply _ _ _).trans ?_
  refine congrArg₂ (· + ·) (mm_out v33 v35 p q) ?_
  refine (broadcastTo_1b_ab_apply _ _ p q).trans ?_
  exact congrFun (shapeCast_self v37 _) (ix2 (0 : Fin 1) q)

/-! ## The block -/

/-- The zero offsets of a rank-three whole-buffer access, spelt as a constant function. -/
theorem hz3 : (![0, 0, 0] : Fin 3 → Nat) = fun _ => 0 := funext fun a => by fin_cases a <;> rfl

/-- The zero offsets of a rank-two whole-buffer access, spelt as a constant function. -/
theorem hz2 : (![0, 0] : Fin 2 → Nat) = fun _ => 0 := funext fun a => by fin_cases a <;> rfl

/-- What the body leaves in the output block, at (0, p, q): the layer's output row of position p at q, from the
    position's row of the x block, the four weights, the two bias rows and the batch's summary row. -/
theorem block_row (x0 : Vec Ideal S1x512x512 .f32) (x1 : Vec Ideal S512x2048 .bf16) (x2 : Vec Ideal S2048x512 .bf16)
    (x3 : Vec Ideal S512x2048 .bf16) (x4 : Vec Ideal S2048x512 .bf16) (x5 : Vec Ideal S1x2048 .f32)
    (x6 : Vec Ideal S1x512 .f32) (x7 : Vec Ideal S1x1x2048 .f32) (p q : Fin 512) :
    out1_8 (F := Ideal) x0 x1 x2 x3 x4 x5 x6 x7 (ix3 (0 : Fin 1) p q)
      = Hydra.layerRow (fun d => x0 (ix3 (0 : Fin 1) p d)) (fun d e => x1 (ix2 d e))
          (fun e => x7 (ix3 (0 : Fin 1) (0 : Fin 1) e)) (fun e d => x2 (ix2 e d)) (fun d e => x3 (ix2 d e))
          (fun e => x5 (ix2 (0 : Fin 1) e)) (fun e d => x4 (ix2 e d)) (fun d => x6 (ix2 (0 : Fin 1) d)) q := by
  unfold out1_8
  rw [View.canon_unit_zero hz3]
  simp only [View.ld_unit_zero (S := S1x512x512) hz3, View.ld_unit_zero (S := S512x2048) hz2,
    View.ld_unit_zero (S := S1x1x2048) hz3, View.ld_unit_zero (S := S2048x512) hz2,
    View.ld_unit_zero (S := S1x2048) hz2, View.ld_unit_zero (S := S1x512) hz2]
  refine (pay1_apply _ _ _ _ p q).trans ?_
  unfold Hydra.layerRow Hydra.ffn
  refine congrArg₂ (· + ·) (congrArg₂ (· + ·) ?_ rfl) (pay2_apply x0 x1 x7 x2 p q)
  refine Finset.sum_congr rfl fun e _ => ?_
  refine congrArg₂ (· * ·) (pay3_apply x0 x1 x7 x2 x3 x5 p e) ?_
  exact congrFun (shapeCast_self x4 Gen.shapeCasts_S2048x512_S2048x512) (ix2 e q)

end Cert.KernelIdeal.FinalBlock

end
-- ==== Proof.FinalArray.lean ====
/-
  The second region's result array, after the region, as one function of the arrays the region finds.

  The region runs over a grid of 8 × 8 points; point `t` is batch `t / 8` and row tile `t mod 8`. At a point it reads the
  block of 512 rows `(t mod 8) · 512 … (t mod 8) · 512 + 511` of batch `t / 8` of `x`, the six weight and bias arrays
  whole, and the summary row of batch `t / 8`, and writes back the same 512 rows of the result. Given that the body's
  output at a row of its blocks is the layer row of that row (the hypothesis `hrow`, a statement about blocks alone),
    * what point `t` writes back is block `t` of the function `G1`: entry `(b, s, q)` is the layer row of position
      `(b, s)` with batch `b`'s summary row, at `q`;
    * every index `(b, s, q)` lies in the block of the point `8 · b + s / 512`, and every point writes back;
  so after the last point the result array is `G1`.
-/
import proofs.«108265_j37366215475341_1_alg».proof.Proof.Gen.KernelIdeal.Frame
import proofs.«108265_j37366215475341_1_alg».proof.Proof.Spec
import Idealize.ShloMosaic.Lib.Pipeline.Value
import Idealize.ShloMosaic.Lib.ValueIdx

set_option maxRecDepth 16384

noncomputable section

namespace Cert.KernelIdeal.FinalValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The block indices of the second region's windows, decided over its 64 grid points

  Point `t` is batch `t / 8`, row tile `t mod 8`. The input `x` and the result move with the point, blocks of 512 rows of one
  batch; the summary row moves with the batch; the six weight and bias arrays are read whole. -/

theorem idx1 : ∀ t : Fin cfg1.N,
      win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val / 8 ∧ win1_7.index t (1 : Fin 3) = 0 ∧ win1_7.index t (2 : Fin 3) = 0
    ∧ win1_8.index t (0 : Fin 3) = t.val / 8 ∧ win1_8.index t (1 : Fin 3) = t.val % 8 ∧ win1_8.index t (2 : Fin 3) = 0 :=
  (by decide +kernel : ∀ t : Fin grid1.N, _)

/-! ## The blocks the second region reads at a point

  A block's coordinate in its array is the block index on that axis times the block's extent, plus the coordinate
  inside the block. -/

/-- Row `r` of the block of `x` at point `t` is row `(t mod 8) · 512 + r` of batch `t / 8`. -/
theorem xblk (c : Dev nD) (t : Fin cfg1.N) (r d : Fin 512) (b : Fin 8) (s : Fin 4096) (hb : b.val = t.val / 8)
    (hs : s.val = t.val % 8 * 512 + r.val) :
    iblk1 V c 0 t (ix3 (0 : Fin 1) r d) = V c main_arg0 (ix3 b s d) := by
  obtain ⟨e00, e01, e02, e10, e11, e20, e21, e30, e31, e40, e41, e50, e51, e60, e61, e70, e71, e72, e80, e81, e82⟩ := idx1 t
  unfold iblk1
  rw [View.read_apply]
  show V c main_arg0 _ = V c main_arg0 _
  congr 1
  funext a
  apply Fin.ext
  match a with
  | ⟨0, _⟩ => show win1_0.index t (0 : Fin 3) * 1 + 1 * 0 = b.val; omega
  | ⟨1, _⟩ => show win1_0.index t (1 : Fin 3) * 512 + 1 * r.val = s.val; omega
  | ⟨2, _⟩ => show win1_0.index t (2 : Fin 3) * 512 + 1 * d.val = d.val; omega

/-- The query matrix is read whole at every point. -/
theorem wqblk (c : Dev nD) (t : Fin cfg1.N) (d : Fin 512) (e : Fin 2048) :
    iblk1 V c 1 t (ix2 d e) = V c main_v0 (ix2 d e) := by
  obtain ⟨e00, e01, e02, e10, e11, e20, e21, e30, e31, e40, e41, e50, e51, e60, e61, e70, e71, e72, e80, e81, e82⟩ := idx1 t
  unfold iblk1
  rw [View.read_apply]
  show V c main_v0 _ = V c main_v0 _
  congr 1
  funext a
  apply Fin.ext
  match a with
  | ⟨0, _⟩ => show win1_1.index t (0 : Fin 2) * 512 + 1 * d.val = d.val; omega
  | ⟨1, _⟩ => show win1_1.index t (1 : Fin 2) * 2048 + 1 * e.val = e.val; omega

/-- The output matrix is read whole at every point. -/
theorem woblk (c : Dev nD) (t : Fin cfg1.N) (e : Fin 2048) (d : Fin 512) :
    iblk1 V c 2 t (ix2 e d) = V c main_v3 (ix2 e d) := by
  obtain ⟨e00, e01, e02, e10, e11, e20, e21, e30, e31, e40, e41, e50, e51, e60, e61, e70, e71, e72, e80, e81, e82⟩ := idx1 t
  unfold iblk1
  rw [View.read_apply]
  show V c main_v3 _ = V c main_v3 _
  congr 1
  funext a
  apply Fin.ext
  match a with
  | ⟨0, _⟩ => show win1_2.index t (0 : Fin 2) * 2048 + 1 * e.val = e.val; omega
  | ⟨1, _⟩ => show win1_2.index t (1 : Fin 2) * 512 + 1 * d.val = d.val; omega

/-- The first feed-forward matrix is read whole at every point. -/
theorem w1blk (c : Dev nD) (t : Fin cfg1.N) (d : Fin 512) (e : Fin 2048) :
    iblk1 V c 3 t (ix2 d e) = V c main_v4 (ix2 d e) := by
  obtain ⟨e00, e01, e02, e10, e11, e20, e21, e30, e31, e40, e41, e50, e51, e60, e61, e70, e71, e72, e80, e81, e82⟩ := idx1 t
  unfold iblk1
  rw [View.read_apply]
  show V c main_v4 _ = V c main_v4 _
  congr 1
  funext a
  apply Fin.ext
  match a with
  | ⟨0, _⟩ => show win1_3.index t (0 : Fin 2) * 512 + 1 * d.val = d.val; omega
  | ⟨1, _⟩ => show win1_3.index t (1 : Fin 2) * 2048 + 1 * e.val = e.val; omega

/-- The second feed-forward matrix is read whole at every point. -/
theorem w2blk (c : Dev nD) (t : Fin cfg1.N) (e : Fin 2048) (d : Fin 512) :
    iblk1 V c 4 t (ix2 e d) = V c main_v5 (ix2 e d) := by
  obtain ⟨e00, e01, e02, e10, e11, e20, e21, e30, e31, e40, e41, e50, e51, e60, e61, e70, e71, e72, e80, e81, e82⟩ := idx1 t
  unfold iblk1
  rw [View.read_apply]
  show V c main_v5 _ = V c main_v5 _
  congr 1
  funext a
  apply Fin.ext
  match a with
  | ⟨0, _⟩ => show win1_4.index t (0 : Fin 2) * 2048 + 1 * e.val = e.val; omega
  | ⟨1, _⟩ => show win1_4.index t (1 : Fin 2) * 512 + 1 * d.val = d.val; omega

/-- The first bias row is read whole at every point. -/
theorem b1blk (c : Dev nD) (t : Fin cfg1.N) (z : Fin 1) (e : Fin 2048) :
    iblk1 V c 5 t (ix2 z e) = V c main_v6 (ix2 z e) := by
  obtain ⟨e00, e01, e02, e10, e11, e20, e21, e30, e31, e40, e41, e50, e51, e60, e61, e70, e71, e72, e80, e81, e82⟩ := idx1 t
  unfold iblk1
  rw [View.read_apply]
  show V c main_v6 _ = V c main_v6 _
  congr 1
  funext a
  apply Fin.ext
  match a with
  | ⟨0, _⟩ => show win1_5.index t (0 : Fin 2) * 1 + 1 * z.val = z.val; omega
  | ⟨1, _⟩ => show win1_5.index t (1 : Fin 2) * 2048 + 1 * e.val = e.val; omega

/-- The second bias row is read whole at every point. -/
theorem b2blk (c : Dev nD) (t : Fin cfg1.N) (z : Fin 1) (d : Fin 512) :
    iblk1 V c 6 t (ix2 z d) = V c main_v7 (ix2 z d) := by
  obtain ⟨e00, e01, e02, e10, e11, e20, e21, e30, e31, e40, e41, e50, e51, e60, e61, e70, e71, e72, e80, e81, e82⟩ := idx1 t
  unfold iblk1
  rw [View.read_apply]
  show V c main_v7 _ = V c main_v7 _
  congr 1
  funext a
  apply Fin.ext
  match a with
  | ⟨0, _⟩ => show win1_6.index t (0 : Fin 2) * 1 + 1 * z.val = z.val; omega
  | ⟨1, _⟩ => show win1_6.index t (1 : Fin 2) * 512 + 1 * d.val = d.val; omega

/-- The summary row read at point `t` is that of batch `t / 8`. -/
theorem kvblk (c : Dev nD) (t : Fin cfg1.N) (e : Fin 2048) (b : Fin 8) (hb : b.val = t.val / 8) :
    iblk1 V c 7 t (ix3 (0 : Fin 1) (0 : Fin 1) e) = V c main_v8 (ix3 b (0 : Fin 1) e) := by
  obtain ⟨e00, e01, e02, e10, e11, e20, e21, e30, e31, e40, e41, e50, e51, e60, e61, e70, e71, e72, e80, e81, e82⟩ := idx1 t
  unfold iblk1
  rw [View.read_apply]
  show V c main_v8 _ = V c main_v8 _
  congr 1
  funext a
  apply Fin.ext
  match a with
  | ⟨0, _⟩ => show win1_7.index t (0 : Fin 3) * 1 + 1 * 0 = b.val; omega
  | ⟨1, _⟩ => show win1_7.index t (1 : Fin 3) * 1 + 1 * 0 = 0; omega
  | ⟨2, _⟩ => show win1_7.index t (2 : Fin 3) * 2048 + 1 * e.val = e.val; omega

/-! ## The result array as one function of the arrays the region finds -/

/-- The layer row by row: entry `(b, s, q)` is the output row of position `(b, s)` of `x`, with the summary row of batch
    `b`, at `q`. -/
def G1 (c : Dev nD) : S8x4096x512.Idx → Elt Ideal .f32 := fun i =>
  Hydra.layerRow (fun d => V c main_arg0 (ix3 (i 0) (i 1) d)) (fun d e => V c main_v0 (ix2 d e))
    (fun e => V c main_v8 (ix3 (i 0) (0 : Fin 1) e)) (fun e d => V c main_v3 (ix2 e d)) (fun d e => V c main_v4 (ix2 d e))
    (fun e => V c main_v6 (ix2 (0 : Fin 1) e)) (fun e d => V c main_v5 (ix2 e d)) (fun d => V c main_v7 (ix2 (0 : Fin 1) d)) (i 2)

/-- `G1` at coordinates. -/
theorem G1_apply (c : Dev nD) (b : Fin 8) (s : Fin 4096) (q : Fin 512) :
    G1 V c (ix3 b s q)
      = Hydra.layerRow (fun d => V c main_arg0 (ix3 b s d)) (fun d e => V c main_v0 (ix2 d e))
          (fun e => V c main_v8 (ix3 b (0 : Fin 1) e)) (fun e d => V c main_v3 (ix2 e d)) (fun d e => V c main_v4 (ix2 d e))
          (fun e => V c main_v6 (ix2 (0 : Fin 1) e)) (fun e d => V c main_v5 (ix2 e d)) (fun d => V c main_v7 (ix2 (0 : Fin 1) d)) q := rfl

/-! ## What a point writes back, and the cover -/

/-- What point `t` writes back is block `t` of `G1`: the body's output at row `p` is the layer row of the block's row
    `p`, which is row `(t mod 8) · 512 + p` of batch `t / 8`. -/
theorem flushed_eq (hrow : ∀ (x0 : Vec Ideal S1x512x512 .f32) (x1 : Vec Ideal S512x2048 .bf16) (x2 : Vec Ideal S2048x512 .bf16)
      (x3 : Vec Ideal S512x2048 .bf16) (x4 : Vec Ideal S2048x512 .bf16) (x5 : Vec Ideal S1x2048 .f32) (x6 : Vec Ideal S1x512 .f32)
      (x7 : Vec Ideal S1x1x2048 .f32) (p q : Fin 512),
      out1_8 (F := Ideal) x0 x1 x2 x3 x4 x5 x6 x7 (ix3 (0 : Fin 1) p q)
        = Hydra.layerRow (fun d => x0 (ix3 (0 : Fin 1) p d)) (fun d e => x1 (ix2 d e))
            (fun e => x7 (ix3 (0 : Fin 1) (0 : Fin 1) e)) (fun e d => x2 (ix2 e d)) (fun d e => x3 (ix2 d e))
            (fun e => x5 (ix2 (0 : Fin 1) e)) (fun e d => x4 (ix2 e d)) (fun d => x6 (ix2 (0 : Fin 1) d)) q)
    (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  funext (y : S1x512x512.Idx)
  obtain ⟨u, p, q, rfl⟩ : ∃ (u : Fin 1) (p q : Fin 512), y = ix3 u p q := ⟨y 0, y 1, y 2, eq_ix3 y⟩
  obtain rfl : u = 0 := Subsingleton.elim _ _
  have hN : t.val < 64 := lt_of_lt_of_eq t.isLt (show cfg1.N = 64 from N_1)
  have hp : p.val < 512 := p.isLt
  obtain ⟨b, hb⟩ : ∃ b : Fin 8, b.val = t.val / 8 := ⟨⟨t.val / 8, by omega⟩, rfl⟩
  obtain ⟨s, hs⟩ : ∃ s : Fin 4096, s.val = t.val % 8 * 512 + p.val := ⟨⟨t.val % 8 * 512 + p.val, by omega⟩, rfl⟩
  have hemb : ((cfg1.win 8).blk t).view.emb (ix3 (0 : Fin 1) p q) = ix3 b s q := by
    obtain ⟨e00, e01, e02, e10, e11, e20, e21, e30, e31, e40, e41, e50, e51, e60, e61, e70, e71, e72, e80, e81, e82⟩ := idx1 t
    funext a
    apply Fin.ext
    match a with
    | ⟨0, _⟩ => show win1_8.index t (0 : Fin 3) * 1 + 1 * 0 = b.val; omega
    | ⟨1, _⟩ => show win1_8.index t (1 : Fin 3) * 512 + 1 * p.val = s.val; omega
    | ⟨2, _⟩ => show win1_8.index t (2 : Fin 3) * 512 + 1 * q.val = q.val; omega
  show out1_8 (iblk1 V c 0 t) (iblk1 V c 1 t) (iblk1 V c 2 t) (iblk1 V c 3 t) (iblk1 V c 4 t) (iblk1 V c 5 t) (iblk1 V c 6 t)
      (iblk1 V c 7 t) (ix3 (0 : Fin 1) p q) = G1 V c (((cfg1.win 8).blk t).view.emb (ix3 (0 : Fin 1) p q))
  rw [hemb, G1_apply, hrow]
  have h0 : (fun d => iblk1 V c 0 t (ix3 (0 : Fin 1) p d)) = fun d => V c main_arg0 (ix3 b s d) :=
    funext fun d => xblk V c t p d b s hb hs
  have h1 : (fun d e => iblk1 V c 1 t (ix2 d e)) = fun d e => V c main_v0 (ix2 d e) :=
    funext fun d => funext fun e => wqblk V c t d e
  have h2 : (fun e d => iblk1 V c 2 t (ix2 e d)) = fun e d => V c main_v3 (ix2 e d) :=
    funext fun e => funext fun d => woblk V c t e d
  have h3 : (fun d e => iblk1 V c 3 t (ix2 d e)) = fun d e => V c main_v4 (ix2 d e) :=
    funext fun d => funext fun e => w1blk V c t d e
  have h4 : (fun e d => iblk1 V c 4 t (ix2 e d)) = fun e d => V c main_v5 (ix2 e d) :=
    funext fun e => funext fun d => w2blk V c t e d
  have h5 : (fun e => iblk1 V c 5 t (ix2 (0 : Fin 1) e)) = fun e => V c main_v6 (ix2 (0 : Fin 1) e) :=
    funext fun e => b1blk V c t 0 e
  have h6 : (fun d => iblk1 V c 6 t (ix2 (0 : Fin 1) d)) = fun d => V c main_v7 (ix2 (0 : Fin 1) d) :=
    funext fun d => b2blk V c t 0 d
  have h7 : (fun e => iblk1 V c 7 t (ix3 (0 : Fin 1) (0 : Fin 1) e)) = fun e => V c main_v8 (ix3 b (0 : Fin 1) e) :=
    funext fun e => kvblk V c t e b hb
  rw [h0, h1, h2, h3, h4, h5, h6, h7]

/-- An index of the result array is in point `t`'s block iff each coordinate is in the block's range on its axis. -/
theorem mem_blk (t : Fin cfg1.N) (i : S8x4096x512.Idx) :
    i ∈ ((cfg1.win 8).blk t).view.set ↔ ∀ a : Fin 3, win1_8.index t a * S1x512x512.size a ≤ (i a).val ∧ (i a).val < win1_8.index t a * S1x512x512.size a + S1x512x512.size a := by
  show i ∈ ((View.whole main_v9).slice (win1_8.rect t)).set ↔ _
  rw [View.set_slice_whole, Rect.mem_set_unit]
  exact Iff.rfl

/-- Every index `(b, s, q)` of the result array is in the block of the point `8 · b + s / 512`, and every point writes
    its block back. -/
theorem cover (i : S8x4096x512.Idx) :
    ∃ t : Fin cfg1.N, (cfg1.win 8).flush t = true ∧ i ∈ ((cfg1.win 8).blk t).view.set := by
  have hN : cfg1.N = 64 := N_1
  have h0 : (i 0).val < 8 := (i 0).isLt
  have h1 : (i 1).val < 4096 := (i 1).isLt
  have h2 : (i 2).val < 512 := (i 2).isLt
  obtain ⟨t, ht⟩ : ∃ t : Fin cfg1.N, t.val = 8 * (i 0).val + (i 1).val / 512 :=
    ⟨⟨8 * (i 0).val + (i 1).val / 512, by omega⟩, rfl⟩
  refine ⟨t, flush1_8 t, ?_⟩
  rw [mem_blk]
  obtain ⟨e00, e01, e02, e10, e11, e20, e21, e30, e31, e40, e41, e50, e51, e60, e61, e70, e71, e72, e80, e81, e82⟩ := idx1 t
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 512 ≤ (i 1).val ∧ (i 1).val < win1_8.index t (1 : Fin 3) * 512 + 512; omega
  | ⟨2, _⟩ => show win1_8.index t (2 : Fin 3) * 512 ≤ (i 2).val ∧ (i 2).val < win1_8.index t (2 : Fin 3) * 512 + 512; omega

/-! ## The result array after the region -/

/-- After the second region's last point the result array is `G1` of the arrays the region found: every index is
    covered by a point's write-back, and each write-back is the block of `G1`. -/
theorem final1 (hrow : ∀ (x0 : Vec Ideal S1x512x512 .f32) (x1 : Vec Ideal S512x2048 .bf16) (x2 : Vec Ideal S2048x512 .bf16)
      (x3 : Vec Ideal S512x2048 .bf16) (x4 : Vec Ideal S2048x512 .bf16) (x5 : Vec Ideal S1x2048 .f32) (x6 : Vec Ideal S1x512 .f32)
      (x7 : Vec Ideal S1x1x2048 .f32) (p q : Fin 512),
      out1_8 (F := Ideal) x0 x1 x2 x3 x4 x5 x6 x7 (ix3 (0 : Fin 1) p q)
        = Hydra.layerRow (fun d => x0 (ix3 (0 : Fin 1) p d)) (fun d e => x1 (ix2 d e))
            (fun e => x7 (ix3 (0 : Fin 1) (0 : Fin 1) e)) (fun e d => x2 (ix2 e d)) (fun d e => x3 (ix2 d e))
            (fun e => x5 (ix2 (0 : Fin 1) e)) (fun e d => x4 (ix2 e d)) (fun d => x6 (ix2 (0 : Fin 1) d)) q)
    (c : Dev nD) :
    (dat1 V c).arrAt 8 cfg1.N = G1 V c :=
  (dat1 V c).arrAt_eq_of_cover 8 (G1 V c) (fun t _ => flushed_eq V hrow c t) cover

end Cert.KernelIdeal.FinalValue

end
-- ==== Proof.EntryContents.lean ====
/-
  What the buffers hold when each of the two kernels is entered, in terms of the memory at launch.

  Before the first kernel the host rounds six weight matrices to the 16-bit format (the identity at the extended
  reals) and lays the two bias vectors out as one-row matrices; nothing else is written. So at the first kernel's
  entry the input array is as launched and each rounded weight reads, entry by entry, as the launched weight. The
  first kernel writes only its summary array; at the second kernel's entry every other buffer is as at the first
  kernel's entry, and the summary array holds what the first kernel's write-backs leave.
-/
import proofs.«108265_j37366215475341_1_alg».proof.Proof.Gen.KernelIdeal.Frame
import Idealize.ShloMosaic.Lib.StableHlo.Run
import Idealize.ShloMosaic.Lib.Pipeline.Value
import Idealize.ShloMosaic.Lib.ValueLayout
import Idealize.ShloMosaic.Lib.Tactic

noncomputable section

namespace Cert.KernelIdeal.Entry

open Cert.KernelIdeal Cert.KernelIdeal.Gen Idealize.ShloMosaic Idealize.ShloMosaic.TcCoe Idealize.ShloMosaic.Tactic
open Idealize.ShloMosaic.ValueIdx
open Idealize.SL Idealize.SL.Sem

variable (m : (ℓ : Loc nD τ sig) → Buf (Elt Ideal) ℓ) (ρ : Dev nD → PrngReg)

/-! ## The first kernel's entry -/

/-- The input array at the first kernel's entry is the launched one: no host operation writes it. -/
theorem entry0_x_eq (c : Dev nD) :
    @Eq (FVec Ideal S8x4096x512 .f32) (V1 m ρ c main_arg0) (m ((c : Thread nD τ).loc main_arg0)) := by
  show StableHlo.after hostOps0 (W0 m ρ c) (Proc.devRef .tc main_arg0) = _
  after_results
  all_goals rfl

/-- The same, entry by entry. -/
theorem entry0_x (c : Dev nD) (b : Fin 8) (s : Fin 4096) (d : Fin 512) :
    V1 m ρ c main_arg0 (ix3 b s d) = m ((c : Thread nD τ).loc main_arg0) (ix3 b s d) :=
  congrFun (entry0_x_eq m ρ c) (ix3 b s d)

/-- The 16-bit key weight at the first kernel's entry is the launched key weight, rounded. -/
theorem entry0_wk_eq (c : Dev nD) :
    @Eq (FVec Ideal S512x2048 .bf16) (V1 m ρ c main_v1)
      (truncf .bf16 (m ((c : Thread nD τ).loc main_arg2) : FVec Ideal S512x2048 .f32) bitsLt_bf16_f32) := by
  show StableHlo.after hostOps0 (W0 m ρ c) (Proc.devRef .tc main_v1) = _
  after_results
  all_goals rfl

/-- Entry by entry it is the launched matrix: the rounding is the identity at the extended reals. -/
theorem entry0_wk (c : Dev nD) (d : Fin 512) (e : Fin 2048) :
    V1 m ρ c main_v1 (ix2 d e) = m ((c : Thread nD τ).loc main_arg2) (ix2 d e) :=
  congrFun (entry0_wk_eq m ρ c) (ix2 d e)

/-- The 16-bit value weight at the first kernel's entry is the launched value weight, rounded. -/
theorem entry0_wv_eq (c : Dev nD) :
    @Eq (FVec Ideal S512x2048 .bf16) (V1 m ρ c main_v2)
      (truncf .bf16 (m ((c : Thread nD τ).loc main_arg3) : FVec Ideal S512x2048 .f32) bitsLt_bf16_f32) := by
  show StableHlo.after hostOps0 (W0 m ρ c) (Proc.devRef .tc main_v2) = _
  after_results
  all_goals rfl

/-- Entry by entry it is the launched matrix: the rounding is the identity at the extended reals. -/
theorem entry0_wv (c : Dev nD) (d : Fin 512) (e : Fin 2048) :
    V1 m ρ c main_v2 (ix2 d e) = m ((c : Thread nD τ).loc main_arg3) (ix2 d e) :=
  congrFun (entry0_wv_eq m ρ c) (ix2 d e)

/-! ## The second kernel's entry

The first kernel's arrays are the input array, the key and value weights (read only) and the summary array (written).
A buffer that is none of the four is at the second kernel's entry what it was at the first's. -/

/-- The input array, which the first kernel only reads, is still the launched one. -/
theorem entry1_x_eq (c : Dev nD) :
    @Eq (FVec Ideal S8x4096x512 .f32) (V2 m ρ c main_arg0) (m ((c : Thread nD τ).loc main_arg0)) :=
  ((W2_arr m ρ c 0).trans (((dat0 (V1 m ρ) c).arrAt_in 0 rfl _).trans (A_eq0 (V1 m ρ) c 0))).trans (entry0_x_eq m ρ c)

/-- The same, entry by entry. -/
theorem entry1_x (c : Dev nD) (b : Fin 8) (s : Fin 4096) (d : Fin 512) :
    V2 m ρ c main_arg0 (ix3 b s d) = m ((c : Thread nD τ).loc main_arg0) (ix3 b s d) :=
  congrFun (entry1_x_eq m ρ c) (ix3 b s d)

/-- The 16-bit query weight at the second kernel's entry is the launched query weight, rounded. -/
theorem entry1_wq_eq (c : Dev nD) :
    @Eq (FVec Ideal S512x2048 .bf16) (V2 m ρ c main_v0)
      (truncf .bf16 (m ((c : Thread nD τ).loc main_arg1) : FVec Ideal S512x2048 .f32) bitsLt_bf16_f32) := by
  refine (W2_of_ne m ρ c main_v0 (by decide)).trans ?_
  show StableHlo.after hostOps0 (W0 m ρ c) (Proc.devRef .tc main_v0) = _
  after_results
  all_goals rfl

/-- Entry by entry it is the launched matrix: the rounding is the identity at the extended reals. -/
theorem entry1_wq (c : Dev nD) (d : Fin 512) (e : Fin 2048) :
    V2 m ρ c main_v0 (ix2 d e) = m ((c : Thread nD τ).loc main_arg1) (ix2 d e) :=
  congrFun (entry1_wq_eq m ρ c) (ix2 d e)

/-- The 16-bit output weight at the second kernel's entry is the launched output weight, rounded. -/
theorem entry1_wo_eq (c : Dev nD) :
    @Eq (FVec Ideal S2048x512 .bf16) (V2 m ρ c main_v3)
      (truncf .bf16 (m ((c : Thread nD τ).loc main_arg4) : FVec Ideal S2048x512 .f32) bitsLt_bf16_f32) := by
  refine (W2_of_ne m ρ c main_v3 (by decide)).trans ?_
  show StableHlo.after hostOps0 (W0 m ρ c) (Proc.devRef .tc main_v3) = _
  after_results
  all_goals rfl

/-- Entry by entry it is the launched matrix: the rounding is the identity at the extended reals. -/
theorem entry1_wo (c : Dev nD) (e : Fin 2048) (d : Fin 512) :
    V2 m ρ c main_v3 (ix2 e d) = m ((c : Thread nD τ).loc main_arg4) (ix2 e d) :=
  congrFun (entry1_wo_eq m ρ c) (ix2 e d)

/-- The 16-bit first feed-forward weight at the second kernel's entry is the launched one, rounded. -/
theorem entry1_w1_eq (c : Dev nD) :
    @Eq (FVec Ideal S512x2048 .bf16) (V2 m ρ c main_v4)
      (truncf .bf16 (m ((c : Thread nD τ).loc main_arg5) : FVec Ideal S512x2048 .f32) bitsLt_bf16_f32) := by
  refine (W2_of_ne m ρ c main_v4 (by decide)).trans ?_
  show StableHlo.after hostOps0 (W0 m ρ c) (Proc.devRef .tc main_v4) = _
  after_results
  all_goals rfl

/-- Entry by entry it is the launched matrix: the rounding is the identity at the extended reals. -/
theorem entry1_w1 (c : Dev nD) (d : Fin 512) (e : Fin 2048) :
    V2 m ρ c main_v4 (ix2 d e) = m ((c : Thread nD τ).loc main_arg5) (ix2 d e) :=
  congrFun (entry1_w1_eq m ρ c) (ix2 d e)

/-- The 16-bit second feed-forward weight at the second kernel's entry is the launched one, rounded. -/
theorem entry1_w2_eq (c : Dev nD) :
    @Eq (FVec Ideal S2048x512 .bf16) (V2 m ρ c main_v5)
      (truncf .bf16 (m ((c : Thread nD τ).loc main_arg7) : FVec Ideal S2048x512 .f32) bitsLt_bf16_f32) := by
  refine (W2_of_ne m ρ c main_v5 (by decide)).trans ?_
  show StableHlo.after hostOps0 (W0 m ρ c) (Proc.devRef .tc main_v5) = _
  after_results
  all_goals rfl

/-- Entry by entry it is the launched matrix: the rounding is the identity at the extended reals. -/
theorem entry1_w2 (c : Dev nD) (e : Fin 2048) (d : Fin 512) :
    V2 m ρ c main_v5 (ix2 e d) = m ((c : Thread nD τ).loc main_arg7) (ix2 e d) :=
  congrFun (entry1_w2_eq m ρ c) (ix2 e d)

/-- The first bias as a one-row matrix at the second kernel's entry is the launched bias vector laid out as a row. -/
theorem entry1_b1_eq (c : Dev nD) :
    @Eq (FVec Ideal S1x2048 .f32) (V2 m ρ c main_v6)
      (shapeCast S1x2048 (m ((c : Thread nD τ).loc main_arg6) : FVec Ideal S2048 .f32) shapeCasts_S2048_S1x2048) := by
  refine (W2_of_ne m ρ c main_v6 (by decide)).trans ?_
  show StableHlo.after hostOps0 (W0 m ρ c) (Proc.devRef .tc main_v6) = _
  after_results
  all_goals rfl

/-- Its one row reads, at e, the launched vector at e. -/
theorem entry1_b1 (c : Dev nD) (e : Fin 2048) :
    V2 m ρ c main_v6 (ix2 (0 : Fin 1) e) = m ((c : Thread nD τ).loc main_arg6) (ix1 e) :=
  (congrFun (entry1_b1_eq m ρ c) (ix2 (0 : Fin 1) e)).trans
    (shapeCast_a_1a_apply (m ((c : Thread nD τ).loc main_arg6) : FVec Ideal S2048 .f32) shapeCasts_S2048_S1x2048 (0 : Fin 1) e)

/-- The second bias as a one-row matrix at the second kernel's entry is the launched bias vector laid out as a row. -/
theorem entry1_b2_eq (c : Dev nD) :
    @Eq (FVec Ideal S1x512 .f32) (V2 m ρ c main_v7)
      (shapeCast S1x512 (m ((c : Thread nD τ).loc main_arg8) : FVec Ideal S512 .f32) shapeCasts_S512_S1x512) := by
  refine (W2_of_ne m ρ c main_v7 (by decide)).trans ?_
  show StableHlo.after hostOps0 (W0 m ρ c) (Proc.devRef .tc main_v7) = _
  after_results
  all_goals rfl

/-- Its one row reads, at d, the launched vector at d. -/
theorem entry1_b2 (c : Dev nD) (d : Fin 512) :
    V2 m ρ c main_v7 (ix2 (0 : Fin 1) d) = m ((c : Thread nD τ).loc main_arg8) (ix1 d) :=
  (congrFun (entry1_b2_eq m ρ c) (ix2 (0 : Fin 1) d)).trans
    (shapeCast_a_1a_apply (m ((c : Thread nD τ).loc main_arg8) : FVec Ideal S512 .f32) shapeCasts_S512_S1x512 (0 : Fin 1) d)

/-- The summary array at the second kernel's entry holds what the first kernel's write-backs leave. -/
theorem entry1_kv (c : Dev nD) : V2 m ρ c main_v8 = (dat0 (V1 m ρ) c).arrAt 3 cfg0.N :=
  W2_arr m ρ c 3

end Cert.KernelIdeal.Entry

end
-- ==== Proof.Layer.lean ====
/-
  The kernel's result array is the layer of the launch memory.

  The second region leaves, at (b, s, d), layerRow of position (b, s) of x and of the summary row of batch b, read from
  the buffers as that region finds them. Those are the launch arrays (the host's format changes are the identity on
  the extended reals, its reshapes re-lay a bias as a row) and the summary array the first region left, which is kvSum
  of the launch arrays. So the result array is layerOut of the launch arrays.
-/
import proofs.«108265_j37366215475341_1_alg».proof.Proof.Spec
import proofs.«108265_j37366215475341_1_alg».proof.Proof.KvAccum
import proofs.«108265_j37366215475341_1_alg».proof.Proof.FinalBlock
import proofs.«108265_j37366215475341_1_alg».proof.Proof.FinalArray
import proofs.«108265_j37366215475341_1_alg».proof.Proof.EntryContents

noncomputable section

open Idealize.ShloMosaic Idealize.ShloMosaic.TcCoe Idealize.SL.Sem Idealize.ShloMosaic.ValueIdx

namespace Cert.KernelIdeal.Layer

open Cert.KernelIdeal Cert.KernelIdeal.Gen

variable (m : (ℓ : Loc nD τ sig) → Buf (Elt Ideal) ℓ) (ρ : Dev nD → PrngReg)

/-- The layer of the launch arrays, as contents of the result array. -/
def layerOf (c : Dev nD) : Buf (Elt Ideal) ((c : Thread nD τ).loc main_v9) := fun i =>
  Hydra.layerOut (fun b s d => m ((c : Thread nD τ).loc main_arg0) (ix3 b s d))
    (fun d e => m ((c : Thread nD τ).loc main_arg1) (ix2 d e)) (fun d e => m ((c : Thread nD τ).loc main_arg2) (ix2 d e))
    (fun d e => m ((c : Thread nD τ).loc main_arg3) (ix2 d e)) (fun e d => m ((c : Thread nD τ).loc main_arg4) (ix2 e d))
    (fun d e => m ((c : Thread nD τ).loc main_arg5) (ix2 d e)) (fun e => m ((c : Thread nD τ).loc main_arg6) (ix1 e))
    (fun e d => m ((c : Thread nD τ).loc main_arg7) (ix2 e d)) (fun d => m ((c : Thread nD τ).loc main_arg8) (ix1 d))
    ⟨(i 0).val, (i 0).isLt⟩ ⟨(i 1).val, (i 1).isLt⟩ ⟨(i 2).val, (i 2).isLt⟩

/-- The summary row of batch b as the second region finds it: kvSum of the launch arrays. -/
theorem kv_row (c : Dev nD) (b : Fin 8) (e : Fin 2048) :
    V2 m ρ c main_v8 (ix3 b (0 : Fin 1) e)
      = Hydra.kvSum (fun b s d => m ((c : Thread nD τ).loc main_arg0) (ix3 b s d))
          (fun d e => m ((c : Thread nD τ).loc main_arg2) (ix2 d e)) (fun d e => m ((c : Thread nD τ).loc main_arg3) (ix2 d e)) b e := by
  rw [Entry.entry1_kv m ρ c, KvValue.final0 (V1 m ρ) c]
  show Hydra.kvSum (KvValue.X (V1 m ρ) c) (KvValue.WK (V1 m ρ) c) (KvValue.WV (V1 m ρ) c) _ _ = _
  have hx : KvValue.X (V1 m ρ) c = fun b s d => m ((c : Thread nD τ).loc main_arg0) (ix3 b s d) :=
    funext fun b => funext fun s => funext fun d => Entry.entry0_x m ρ c b s d
  have hk : KvValue.WK (V1 m ρ) c = fun d e => m ((c : Thread nD τ).loc main_arg2) (ix2 d e) :=
    funext fun d => funext fun e => Entry.entry0_wk m ρ c d e
  have hv : KvValue.WV (V1 m ρ) c = fun d e => m ((c : Thread nD τ).loc main_arg3) (ix2 d e) :=
    funext fun d => funext fun e => Entry.entry0_wv m ρ c d e
  rw [hx, hk, hv]
  rfl

/-- THE KERNEL'S VALUE: what the second region's write-backs leave in the result array is the layer. -/
theorem kernel_value (c : Dev nD) : (dat1 (V2 m ρ) c).arrAt 8 cfg1.N = layerOf m c := by
  rw [FinalValue.final1 (V2 m ρ) FinalBlock.block_row c]
  funext i
  obtain ⟨b, s, d, rfl⟩ : ∃ (b : Fin 8) (s : Fin 4096) (d : Fin 512), i = ix3 b s d := ⟨i 0, i 1, i 2, eq_ix3 i⟩
  rw [FinalValue.G1_apply]
  have h0 : (fun d => V2 m ρ c main_arg0 (ix3 b s d)) = fun d => m ((c : Thread nD τ).loc main_arg0) (ix3 b s d) :=
    funext fun d => Entry.entry1_x m ρ c b s d
  have h1 : (fun d e => V2 m ρ c main_v0 (ix2 d e)) = fun d e => m ((c : Thread nD τ).loc main_arg1) (ix2 d e) :=
    funext fun d => funext fun e => Entry.entry1_wq m ρ c d e
  have h2 : (fun e => V2 m ρ c main_v8 (ix3 b (0 : Fin 1) e)) = Hydra.kvSum (fun b s d => m ((c : Thread nD τ).loc main_arg0) (ix3 b s d))
      (fun d e => m ((c : Thread nD τ).loc main_arg2) (ix2 d e)) (fun d e => m ((c : Thread nD τ).loc main_arg3) (ix2 d e)) b :=
    funext fun e => kv_row m ρ c b e
  have h3 : (fun e d => V2 m ρ c main_v3 (ix2 e d)) = fun e d => m ((c : Thread nD τ).loc main_arg4) (ix2 e d) :=
    funext fun e => funext fun d => Entry.entry1_wo m ρ c e d
  have h4 : (fun d e => V2 m ρ c main_v4 (ix2 d e)) = fun d e => m ((c : Thread nD τ).loc main_arg5) (ix2 d e) :=
    funext fun d => funext fun e => Entry.entry1_w1 m ρ c d e
  have h5 : (fun e => V2 m ρ c main_v6 (ix2 (0 : Fin 1) e)) = fun e => m ((c : Thread nD τ).loc main_arg6) (ix1 e) :=
    funext fun e => Entry.entry1_b1 m ρ c e
  have h6 : (fun e d => V2 m ρ c main_v5 (ix2 e d)) = fun e d => m ((c : Thread nD τ).loc main_arg7) (ix2 e d) :=
    funext fun e => funext fun d => Entry.entry1_w2 m ρ c e d
  have h7 : (fun d => V2 m ρ c main_v7 (ix2 (0 : Fin 1) d)) = fun d => m ((c : Thread nD τ).loc main_arg8) (ix1 d) :=
    funext fun d => Entry.entry1_b2 m ρ c d
  rw [h0, h1, h2, h3, h4, h5, h6, h7]
  rfl

end Cert.KernelIdeal.Layer

end
-- ==== Proof.lean ====
/-
  The encoder layer (linear attention with a key-value summary per batch, then a feed-forward block, both with
  residuals): the kernel against its reference, over the extended reals.

  The kernel works in two passes over a grid of 8 batches × 8 tiles of 512 positions. The first pass accumulates, for
  each batch, the summary kvSum(b, e) = Σ_s unit(x(b,s)·wk)(e) · (x(b,s)·wv)(e) over all 4096 positions: a carried
  block started from zero at the first tile of a batch, each tile adding the sum of its 512 shares. The second pass
  computes, tile by tile and row by row, unit(x·wq) · kvSum, its product with wo plus x, and the feed-forward block.
  The reference computes the same quantities on whole arrays. On the extended reals a change of float format is the
  identity, a matrix product into a zero accumulator is the plain sum of products, and a sum taken tile by tile from
  zero is the whole sum (addition of extended reals is commutative and associative, and zero is neutral), so both
  programs end with layerOut of the argument arrays (Spec.lean) in their result arrays. No cancellation or
  distributivity is used, so finiteness of the inputs plays no part in the equality.

  The three frames: the two kernel programs by their generated frame proofs, the reference by its generated run with
  the result dropped. The idealization rewrote nothing, so that conjunct is trivial.
-/
import proofs.«108265_j37366215475341_1_alg».proof.Defs
import proofs.«108265_j37366215475341_1_alg».proof.Proof.Gen.Kernel
import proofs.«108265_j37366215475341_1_alg».proof.Proof.Gen.Kernel.Skeleton
import proofs.«108265_j37366215475341_1_alg».proof.Proof.Gen.Kernel.Launch
import proofs.«108265_j37366215475341_1_alg».proof.Proof.Gen.Kernel.Points
import proofs.«108265_j37366215475341_1_alg».proof.Proof.Gen.Kernel.Frame
import proofs.«108265_j37366215475341_1_alg».proof.Proof.Gen.KernelIdeal
import proofs.«108265_j37366215475341_1_alg».proof.Proof.Gen.KernelIdeal.Skeleton
import proofs.«108265_j37366215475341_1_alg».proof.Proof.Gen.KernelIdeal.Launch
import proofs.«108265_j37366215475341_1_alg».proof.Proof.Gen.KernelIdeal.Points
import proofs.«108265_j37366215475341_1_alg».proof.Proof.Gen.KernelIdeal.Frame
import proofs.«108265_j37366215475341_1_alg».proof.Proof.Gen.ReferenceIdeal
import proofs.«108265_j37366215475341_1_alg».proof.Proof.Gen.Pre_finite_inputs
import proofs.«108265_j37366215475341_1_alg».proof.Proof.Gen.ReferenceIdeal.Read
import proofs.«108265_j37366215475341_1_alg».proof.Proof.RefLayer
import proofs.«108265_j37366215475341_1_alg».proof.Proof.RunNamed
import proofs.«108265_j37366215475341_1_alg».proof.Proof.Layer
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the argument arrays in their result arrays: the kernel's by the two regions'
    values (the summary array, then the layer row by row), the reference's by its stages read at an index. -/
theorem algebraic : Cert.algebraic_KernelIdeal_ReferenceIdeal := by
  intro m ρ m' ρ' _ hagree
  refine ⟨fun c => Cert.KernelIdeal.Layer.layerOf m c, ?_, ?_⟩
  · exact (θ_run Cert.KernelIdeal.defs _ _).mono
      (fun r h c => ⟨(h c).1.trans (Cert.KernelIdeal.Layer.kernel_value m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v35_eq, h0, h1, h2, h3, h4, h5, h6, h7, h8]
    funext i
    obtain ⟨b, s, d, rfl⟩ : ∃ (b : Fin 8) (s : Fin 4096) (d : Fin 512), i = ix3 b s d := ⟨i 0, i 1, i 2, eq_ix3 i⟩
    exact Cert.ReferenceIdeal.RefValue.ref_layer _ _ _ _ _ _ _ _ _ b s d

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
